-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200x128 : Shape := ⟨3, ![1024, 200, 128]⟩
abbrev S1024 : Shape := ⟨1, ![1024]⟩
abbrev S100000x128 : Shape := ⟨2, ![100000, 128]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x200x128 .f32) (main_arg1 : IVec S1024 32) (main_arg2 : FVec F S100000x128 .f32) : IVec S_ 1 :=
  let main_v0 : FVec F S1024x200x128 .f32 := Host.absf main_arg0
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 99999#32
  let main_v11 : IVec S1024 32 := broadcastInDim S1024 ![] bcast_S_S1024 main_c_3
  let main_v12 : IVec S1024 1 := cmpi .sle main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x200x128 : Shape := ⟨3, ![1024, 200, 128]⟩
abbrev S1024 : Shape := ⟨1, ![1024]⟩
abbrev S100000x128 : Shape := ⟨2, ![100000, 128]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S1024x1x128 : Shape := ⟨3, ![1024, 1, 128]⟩
abbrev S1024x201x128 : Shape := ⟨3, ![1024, 201, 128]⟩
abbrev S128x1x128 : Shape := ⟨3, ![128, 1, 128]⟩
abbrev S128x200x128 : Shape := ⟨3, ![128, 200, 128]⟩
abbrev S128x201x128 : Shape := ⟨3, ![128, 201, 128]⟩

abbrev nBuf : Table → Nat
  | .hbm => 6
  | .local .tc .vmem => 6
  | .local .scVector .vmem => 2
  | _ => 0

abbrev bufTy : (tb : Table) → Fin (nBuf tb) → BufTy
  | .hbm, ⟨0, _⟩ => ⟨S1024x200x128, .f32⟩
  | .hbm, ⟨1, _⟩ => ⟨S1024, .i32⟩
  | .hbm, ⟨2, _⟩ => ⟨S100000x128, .f32⟩
  | .hbm, ⟨3, _⟩ => ⟨S1024x128, .f32⟩
  | .hbm, ⟨4, _⟩ => ⟨S1024x1x128, .f32⟩
  | .hbm, ⟨5, _⟩ => ⟨S1024x201x128, .f32⟩
  | .local .tc .vmem, ⟨0, _⟩ => ⟨S128x1x128, .f32⟩
  | .local .tc .vmem, ⟨1, _⟩ => ⟨S128x1x128, .f32⟩
  | .local .tc .vmem, ⟨2, _⟩ => ⟨S128x200x128, .f32⟩
  | .local .tc .vmem, ⟨3, _⟩ => ⟨S128x200x128, .f32⟩
  | .local .tc .vmem, ⟨4, _⟩ => ⟨S128x201x128, .f32⟩
  | .local .tc .vmem, ⟨5, _⟩ => ⟨S128x201x128, .f32⟩
  | .local .scVector .vmem, ⟨0, _⟩ => ⟨S32, .i32⟩
  | .local .scVector .vmem, ⟨1, _⟩ => ⟨S32x128, .f32⟩
  | _, _ => ⟨S1024x200x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg2_scv : Ref sig .scVector := ⟨.hbm, 2, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x201x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S32x128 : S100000x128.Gathers 0 S32x128
  shapeCasts_S1024x128_S1024x1x128 : S1024x128.ShapeCasts S1024x1x128
  inb_S128x1x128_S128x1x128_0_0_0 : ∀ a, (![0, 0, 0] : Fin 3 → Nat) a + S128x1x128.size a ≤ S128x1x128.size a
  h_S128x1x128 : 0 < S128x1x128.numel
  shapeCasts_S128x1x128_S128x1x128 : S128x1x128.ShapeCasts S128x1x128
  inb_S128x201x128_S128x1x128_0_0_0 : ∀ a, (![0, 0, 0] : Fin 3 → Nat) a + S128x1x128.size a ≤ S128x201x128.size a
  inb_S128x200x128_S128x200x128_0_0_0 : ∀ a, (![0, 0, 0] : Fin 3 → Nat) a + S128x200x128.size a ≤ S128x200x128.size a
  h_S128x200x128 : 0 < S128x200x128.numel
  inb_S128x201x128_S128x200x128_0_1_0 : ∀ a, (![0, 1, 0] : Fin 3 → Nat) a + S128x200x128.size a ≤ S128x201x128.size a
  hcc0_scratch2 : 0 + S_.numel ≤ 9
  hcc0_scoped0 : 1 + S_.numel ≤ 9
  hcc0_scoped1 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_off2_inb : ∀ i : grid0.Coords, ∀ a, (k0_off2 i) a + S32x128.size a ≤ S1024x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1x128.size a ≤ S1024x1x128.size a
  hwx1_0 : ∀ i : grid1.Coords, EltTy.bits .f32 = 32 ∨ (Rect.block (s := S1024x1x128) S128x1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x200x128.size a ≤ S1024x200x128.size a
  hwx1_1 : ∀ i : grid1.Coords, EltTy.bits .f32 = 32 ∨ (Rect.block (s := S1024x200x128) S128x200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x201x128.size a ≤ S1024x201x128.size a
  hwx1_2 : ∀ i : grid1.Coords, EltTy.bits .f32 = 32 ∨ (Rect.block (s := S1024x201x128) S128x201x128.size (cc1_transform_2 i) (hinb1_2 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_v1) S128x1x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x201x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x200x128 : Shape := ⟨3, ![1024, 200, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S1024x1x128 : Shape := ⟨3, ![1024, 1, 128]⟩
abbrev S1024x201x128 : Shape := ⟨3, ![1024, 201, 128]⟩

abbrev nBuf : Space → Nat
  | .hbm => 31
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024, .i32⟩
  | .hbm, ⟨2, _⟩ => ⟨S100000x128, .f32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x128, .f32⟩
  | .hbm, ⟨25, _⟩ => ⟨S1024x128, .i1⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x1x128, .f32⟩
  | .hbm, ⟨30, _⟩ => ⟨S1024x201x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128_0 : S1024.BroadcastsInDim S1024x128 (![0] : Fin 1 → Fin S1024x128.rank)
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  concatenates_S1024x1x128_S1024x200x128_S1024x201x128_d1 : Shape.Concatenates [S1024x1x128, S1024x200x128] S1024x201x128 1
  gather_S100000x128_S1024x1_S1024x128_1_0_n_n_0_1_1128_wf : GatherDims.WF S100000x128 S1024x1 S1024x128 [1] [0] [] [0] [] 1 ![1, 128]

variable [Facts₀]

def gather_S100000x128_S1024x1_S1024x128_1_0_n_n_0_1_1128 : GatherDims S100000x128 S1024x1 S1024x128 where
  offsetDims := [1]
  collapsedSliceDims := [0]
  operandBatchingDims := []
  startIndicesBatchingDims := []
  startIndexMap := [0]
  indexVectorDim := 1
  sliceSizes := ![1, 128]
  wf := gather_S100000x128_S1024x1_S1024x128_1_0_n_n_0_1_1128_wf

class Facts : Prop extends Facts₀ where

variable [Facts]
-- ==== Proof.Spec.lean ====
/-
  The function both programs compute, stated once over plain index types.

  The inputs are a feature array `feat` of shape [1024, 200, 128], a vector `idx` of 1024 index words and a
  table `tab` of shape [100000, 128]. The result has shape [1024, 201, 128]: for each batch row `b`,
  position 0 along the middle axis holds row `idx[b]` of the table, and position `1 + t` holds
  `feat[b, t, :]`. No arithmetic is done on the entries, so the element type is arbitrary.

  An index word names a row by its unsigned value. Both programs are only compared where every word is
  below 100000 (`InRange`); the clamp in `rowOf` just makes the function total.
-/
import Idealize.ShloMosaic.PureOps.Ideal
import Idealize.ShloMosaic.Lib.ValueIdx

namespace Cert.Spec

open Idealize.ShloMosaic Idealize.ShloMosaic.ValueIdx

/-- The table row an index word names: its unsigned value, kept inside the table's 100000 rows. -/
def rowOf (w : BitVec 32) : Fin 100000 := ⟨min w.toNat 99999, by omega⟩

/-- Where the word is below 100000 the row is the word's unsigned value. -/
theorem rowOf_val {w : BitVec 32} (h : w.toNat < 100000) : (rowOf w).val = w.toNat := by
  show min w.toNat 99999 = w.toNat
  omega

/-- Every index word is below the table's row count. -/
def InRange (idx : (⟨1, ![1024]⟩ : Shape).Idx → BitVec 32) : Prop := ∀ b, (idx b).toNat < 100000

/-- A word below 100000 has its sign bit clear, so its signed reading is its unsigned one. -/
theorem toInt_of_lt {w : BitVec 32} (h : w.toNat < 100000) : w.toInt = (w.toNat : Int) := by
  rw [BitVec.toInt_eq_toNat_cond]
  split
  · rfl
  · omega

/-- The result array: the looked-up table row at middle position 0, the feature rows after it. -/
def G {α : Type} (feat : (⟨3, ![1024, 200, 128]⟩ : Shape).Idx → α) (idx : (⟨1, ![1024]⟩ : Shape).Idx → BitVec 32)
    (tab : (⟨2, ![100000, 128]⟩ : Shape).Idx → α) : (⟨3, ![1024, 201, 128]⟩ : Shape).Idx → α :=
  fun j =>
    if (j 1).val = 0 then tab (ix2 (rowOf (idx (ix1 (j 0)))) (j 2))
    else feat (ix3 (j 0) ⟨(j 1).val - 1, by have h : (j 1).val < 201 := (j 1).isLt; omega⟩ (j 2))

/-- At middle position 0 the result is the table row the batch row's word names. -/
theorem G_zero {α : Type} (feat : (⟨3, ![1024, 200, 128]⟩ : Shape).Idx → α) (idx : (⟨1, ![1024]⟩ : Shape).Idx → BitVec 32)
    (tab : (⟨2, ![100000, 128]⟩ : Shape).Idx → α) (b : Fin 1024) (d : Fin 128) :
    G feat idx tab (ix3 b (0 : Fin 201) d) = tab (ix2 (rowOf (idx (ix1 b))) d) := by
  unfold G
  rw [if_pos (show ((ix3 b (0 : Fin 201) d : (⟨3, ![1024, 201, 128]⟩ : Shape).Idx) 1).val = 0 from rfl)]

/-- At middle position `t + 1` the result is the feature entry `(b, t, d)`. -/
theorem G_succ {α : Type} (feat : (⟨3, ![1024, 200, 128]⟩ : Shape).Idx → α) (idx : (⟨1, ![1024]⟩ : Shape).Idx → BitVec 32)
    (tab : (⟨2, ![100000, 128]⟩ : Shape).Idx → α) (b : Fin 1024) (t : Fin 200) (d : Fin 128) :
    G feat idx tab (ix3 b (⟨t.val + 1, by omega⟩ : Fin 201) d) = feat (ix3 b t d) := by
  unfold G
  rw [if_neg (show ¬ ((ix3 b (⟨t.val + 1, by omega⟩ : Fin 201) d : (⟨3, ![1024, 201, 128]⟩ : Shape).Idx) 1).val = 0 from Nat.succ_ne_zero _)]
  rfl

end Cert.Spec
-- ==== Proof.PreRange.lean ====
/-
  The precondition bounds the index words.

  The printed predicate is the conjunction of three "all" reductions; the last one says that every index
  word, read signed, lies between 0 and 99999. A word whose signed reading is nonnegative reads the same
  unsigned, so every word's unsigned value is below 100000.
-/
import proofs.«204669_g5978594476505_cont_9to1_m_202_17_alg».proof.Pre_input_domain
import proofs.«204669_g5978594476505_cont_9to1_m_202_17_alg».proof.Proof.Gen.Pre_input_domain
import proofs.«204669_g5978594476505_cont_9to1_m_202_17_alg».proof.Proof.Spec
import Idealize.ShloMosaic.Lib.ReduceAll

namespace Cert.Proof.PreRange

open Idealize.ShloMosaic

/-- The rank-zero shape has exactly one index. -/
instance subsingleton_scalar_idx : Subsingleton Cert.Pre_input_domain.S_.Idx :=
  ⟨fun _ _ => funext fun d => d.elim0⟩

/-- A word that is at least 0 and at most 99999 when read signed has unsigned value below 100000. -/
theorem toNat_lt_of_signed_bounds {w : BitVec 32} (h0 : (0#32 : BitVec 32).toInt ≤ w.toInt)
    (h1 : w.toInt ≤ (99999#32 : BitVec 32).toInt) : w.toNat < 100000 := by
  rw [show (0#32 : BitVec 32).toInt = 0 from by decide] at h0
  rw [show (99999#32 : BitVec 32).toInt = 99999 from by decide] at h1
  have hc := BitVec.toInt_eq_toNat_cond w
  split at hc <;> omega

/-- Where the printed predicate holds, every index word is below the table's row count. -/
theorem inRange {F : FTy → Type} [FloatOps F] (a0 : FVec F Cert.Pre_input_domain.S1024x200x128 .f32)
    (a1 : IVec Cert.Pre_input_domain.S1024 32) (a2 : FVec F Cert.Pre_input_domain.S100000x128 .f32)
    (h : Cert.Pre_input_domain.fn (F := F) a0 a1 a2 = fun _ => 1#1) : Cert.Spec.InRange a1 := by
  intro b
  have h0 := congrFun h ValueIdx.ix0
  dsimp only [Cert.Pre_input_domain.fn] at h0
  obtain ⟨_, h14⟩ := IntOp.andi_eq_one.1 h0
  have hb := Host.reduce_andi_all _ _ _ _ _ h14 b
  obtain ⟨hge, hle⟩ := IntOp.andi_eq_one.1 hb
  exact toNat_lt_of_signed_bounds (IntOp.cmpi_sge.1 hge) (IntOp.cmpi_sle.1 hle)

end Cert.Proof.PreRange
-- ==== Proof.KernelSetup.lean ====
/-
  The kernel as the SparseCore launch theorem sees it, and what its threads hand one another.

  The program is three steps on the TensorCore: a SparseCore call in which each of the 32 vector subcores
  (SparseCore `c`, subcore `i`, worker number `2 i + c`) copies its 32 index words, gathers the 32 table rows
  they name, and writes them to rows `32 (2 i + c) …` of an intermediate array of shape [1024, 128]; a reshape of
  that array to [1024, 1, 128]; and a TensorCore region of 8 grid points that lays a block of 128 looked-up rows
  and the matching block of feature rows side by side along the middle axis.

  A worker needs: a read share of the whole table (every worker reads rows anywhere in it), its own 32 index
  words, and its own 32 rows of the intermediate array. It gives back the same, the rows now holding the
  looked-up table rows. The resource for a whole SparseCore is simply the collection of its 16 workers'
  resources, so splitting a SparseCore's operands among its workers is the identity.
-/
import proofs.«204669_g5978594476505_cont_9to1_m_202_17_alg».proof.Defs
import proofs.«204669_g5978594476505_cont_9to1_m_202_17_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204669_g5978594476505_cont_9to1_m_202_17_alg».proof.Proof.Gen.Kernel
import proofs.«204669_g5978594476505_cont_9to1_m_202_17_alg».proof.Proof.Gen.Kernel.Skeleton
import proofs.«204669_g5978594476505_cont_9to1_m_202_17_alg».proof.Proof.Gen.Kernel.Launch
import proofs.«204669_g5978594476505_cont_9to1_m_202_17_alg».proof.Proof.Gen.Kernel.Points

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore region's staging cells, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The staging cells' component. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The launch memory and the arrays -/

variable (m : (ℓ : Loc nD τ sig) → Buf (Elt F) ℓ) (ρ : Dev nD → PrngReg)

abbrev fLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0
abbrev eLoc (d : Dev nD) : Loc nD τ sig := (SparseCore.T d).loc main_v1
abbrev rLoc (d : Dev nD) : Loc nD τ sig := (SparseCore.T d).loc main_v2

/-- The arrays as a vector subcore's kernel names them. -/
abbrev tV : Memref sig .scVector .hbm S100000x128 .f32 := Memref.whole main_arg2_scv
abbrev iV : Memref sig .scVector .hbm S1024 .i32 := Memref.whole main_arg1_scv
abbrev oV : Memref sig .scVector .hbm S1024x128 .f32 := Memref.whole main_v0_scv

/-- The grid coordinates of SparseCore `c`, vector subcore `i`. -/
def coordsV (c : Fin (grid0.bound 0)) (s : Fin (grid0.bound 1)) : grid0.Coords :=
  fun | 0 => c | 1 => s | ⟨_ + 2, h⟩ => absurd h (Nat.not_lt.2 (Nat.le_add_left _ _))

/-- A worker's 32 index words, and its 32 rows of the intermediate array, as the kernel slices them. -/
abbrev iSlice (L : grid0.Coords) : Memref sig .scVector .hbm S32 .i32 :=
  (iV).slice (Rect.unit (s := S1024) (k0_off1 L) S32.size (k0_off1_inb L)) (fun _ => rfl)
abbrev oSlice (L : grid0.Coords) : Memref sig .scVector .hbm S32x128 .f32 :=
  (oV).slice (Rect.unit (s := S1024x128) (k0_off2 L) S32x128.size (k0_off2_inb L)) (fun _ => rfl)
abbrev iSet (L : grid0.Coords) : Finset S1024.Idx := (iSlice L).view.set
abbrev oSet (L : grid0.Coords) : Finset S1024x128.Idx := (oSlice L).view.set

/-- A worker's read share of the table: the whole share cut in two for the SparseCores, each half in sixteen. -/
def tShare (c : Fin 2) (i : Fin 16) : PosShare TreeShare :=
  pieceOf (pieceOf fullShare 2 (by decide) c) 16 (by decide) i

variable [FloatOps F]

/-- What the intermediate array holds once every worker is done: row `b` is the table row that index word `b` names. -/
def looked (d : Dev nD) : Buf (Elt F) (oLoc d) :=
  fun y => m (tLoc d) (ix2 (Cert.Spec.rowOf (m (iLoc d) (ix1 (y 0)))) (y 1))

/-- A worker's operands: its read share of the table, its index words, its rows of the intermediate array at
    whatever they hold. -/
def goRes (d : Dev nD) (c : Fin 2) (i : Fin 16) : sProp 𝕄 :=
  iprop((tLoc d ↦{tShare c i} m (tLoc d)) ∗ (iLoc d ↦[iSet (coordsV c i)]{fullShare} m (iLoc d))
    ∗ ∃ f, oLoc d ↦[oSet (coordsV c i)]{fullShare} f)

/-- A worker's results: the same, its rows now the looked-up table rows. -/
def tdRes (d : Dev nD) (c : Fin 2) (i : Fin 16) : sProp 𝕄 :=
  iprop((tLoc d ↦{tShare c i} m (tLoc d)) ∗ (iLoc d ↦[iSet (coordsV c i)]{fullShare} m (iLoc d))
    ∗ oLoc d ↦[oSet (coordsV c i)]{fullShare} looked m d)

/-- The one call runs on two SparseCores, sixteen vector subcores each. -/
theorem nCore_eq (q : Fin 1) : (K (F := F)).nCore q = 2 := match q with | 0 => rfl
theorem nSub_eq (q : Fin 1) : (K (F := F)).nSub q = 16 := match q with | 0 => rfl

/-- What the handshakes carry: a SparseCore's operands are its sixteen workers' operands, its results theirs. -/
def P : (K (F := F)).Pay (nD := nD) (Val := Elt F) (Name := ℕ) (U := UU) where
  st := fun q d c => bigSep Finset.univ fun i : Fin 16 => goRes m d (c.cast (nCore_eq q)) i
  dn := fun q d c => bigSep Finset.univ fun i : Fin 16 => tdRes m d (c.cast (nCore_eq q)) i
  go := fun q d c i => goRes m d (c.cast (nCore_eq q)) (i.cast (nSub_eq q))
  td := fun q d c i => tdRes m d (c.cast (nCore_eq q)) (i.cast (nSub_eq q))
  x := fun _ _ => iprop(emp)

instance P_storable : (P (F := F) m).IsStorable where
  st _ d c := by unfold P goRes; infer_instance
  dn _ d c := by unfold P tdRes; infer_instance
  go _ _ _ _ := by unfold P goRes; infer_instance
  td _ _ _ _ := by unfold P tdRes; infer_instance

end Cert.Proof.Kernel

end
-- ==== Proof.KernelRegion.lean ====
/-
  The TensorCore region: at each of the 8 grid points the body receives a block of 128 looked-up rows
  (shape [128, 1, 128]) and the matching block of 128 x 200 feature rows (shape [128, 200, 128]) and fills its
  output block of shape [128, 201, 128] with two stores that tile it: the looked-up rows at middle position 0,
  the feature rows at middle positions 1 to 200. So the output block is one function of the two input blocks,
  `blockOut`, and the region's proof data names it.
-/
import proofs.«204669_g5978594476505_cont_9to1_m_202_17_alg».proof.Proof.KernelSetup
import Idealize.ShloMosaic.Lib.Pipeline.FrameBody
import Idealize.ShloMosaic.Lib.Pipeline.Value

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The body's two stores, and the block they leave -/

abbrev rIn0 : Rect S128x1x128 := Rect.unit (s := S128x1x128) ![0, 0, 0] S128x1x128.size inb_S128x1x128_S128x1x128_0_0_0
abbrev rIn1 : Rect S128x200x128 := Rect.unit (s := S128x200x128) ![0, 0, 0] S128x200x128.size inb_S128x200x128_S128x200x128_0_0_0
abbrev rOut0 : Rect S128x201x128 := Rect.unit (s := S128x201x128) ![0, 0, 0] S128x1x128.size inb_S128x201x128_S128x1x128_0_0_0
abbrev rOut1 : Rect S128x201x128 := Rect.unit (s := S128x201x128) ![0, 1, 0] S128x200x128.size inb_S128x201x128_S128x200x128_0_1_0

/-- The output block after the body, from the two input blocks: its two stores as pieces, the later one first. -/
def blockOut (x0 : Vec F S128x1x128 .f32) (x1 : Vec F S128x200x128 .f32) : Vec F S128x201x128 .f32 :=
  View.canon [⟨rOut1, View.ld x1 rIn1⟩, ⟨rOut0, k1_pay1 (View.ld x0 rIn0)⟩]

/-- An index of the output block is under the first store iff its middle coordinate is 0, -/
theorem mem_rOut0 (y : S128x201x128.Idx) : y ∈ (rOut0 : Rect S128x201x128).set ↔ (y 1).val = 0 := by
  have h0 : (y 0).val < 128 := (y 0).isLt
  have h1 : (y 1).val < 201 := (y 1).isLt
  have h2 : (y 2).val < 128 := (y 2).isLt
  rw [Rect.mem_set_unit]
  constructor
  · intro h
    have b : (0 : Nat) ≤ (y 1).val ∧ (y 1).val < 0 + 1 := h 1
    omega
  · intro h a
    match a with
    | ⟨0, _⟩ => show (0 : Nat) ≤ (y 0).val ∧ (y 0).val < 0 + 128; omega
    | ⟨1, _⟩ => show (0 : Nat) ≤ (y 1).val ∧ (y 1).val < 0 + 1; omega
    | ⟨2, _⟩ => show (0 : Nat) ≤ (y 2).val ∧ (y 2).val < 0 + 128; omega

/-- and under the second iff it is not. -/
theorem mem_rOut1 (y : S128x201x128.Idx) : y ∈ (rOut1 : Rect S128x201x128).set ↔ (y 1).val ≠ 0 := by
  have h0 : (y 0).val < 128 := (y 0).isLt
  have h1 : (y 1).val < 201 := (y 1).isLt
  have h2 : (y 2).val < 128 := (y 2).isLt
  rw [Rect.mem_set_unit]
  constructor
  · intro h
    have b : (1 : Nat) ≤ (y 1).val ∧ (y 1).val < 1 + 200 := h 1
    omega
  · intro h a
    match a with
    | ⟨0, _⟩ => show (0 : Nat) ≤ (y 0).val ∧ (y 0).val < 0 + 128; omega
    | ⟨1, _⟩ => show (1 : Nat) ≤ (y 1).val ∧ (y 1).val < 1 + 200; omega
    | ⟨2, _⟩ => show (0 : Nat) ≤ (y 2).val ∧ (y 2).val < 0 + 128; omega

/-- The two stores tile the output block, so every index is under one of them. -/
theorem blockOut_cover (p1 : Vec F S128x200x128 .f32) (p0 : Vec F S128x1x128 .f32) (y : S128x201x128.Idx) :
    ∃ pc ∈ ([⟨rOut1, p1⟩, ⟨rOut0, p0⟩] : List (View.Piece (Elt F) S128x201x128 .f32)), y ∈ pc.1.set := by
  by_cases h : (y 1).val = 0
  · exact ⟨⟨rOut0, p0⟩, List.mem_cons_of_mem _ List.mem_cons_self, (mem_rOut0 y).mpr h⟩
  · exact ⟨⟨rOut1, p1⟩, List.mem_cons_self, (mem_rOut1 y).mpr h⟩

/-! ## The body's triple -/

set_option maxHeartbeats 1000000 in
/-- The body on whole staging buffers, the inputs' at `x0`, `x1` and the output's at anything, leaves the inputs as
    they were and the output at `blockOut x0 x1`. -/
theorem sound_kernel (c : Dev nD) (E : Set ℕ) (i : grid1.Coords) (arg1 : Memref sig .tc .vmem S128x1x128 .f32) (harg1 : arg1.IsWhole)
    (arg2 : Memref sig .tc .vmem S128x200x128 .f32) (harg2 : arg2.IsWhole) (arg3 : Memref sig .tc .vmem S128x201x128 .f32) (harg3 : arg3.IsWhole)
    (x0 : Vec F S128x1x128 .f32) (x1 : Vec F S128x200x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ Kc ⟨⟩))
      ⊢ wp frame (wpE (defs₀ (F := F)) Variants.none c none) E (cc1__concat_body i arg1 harg1 arg2 harg2 arg3 harg3) Kc := by
  simp only [cc1__concat_body_eq_skeleton]; unfold cc1__concat_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _ _)

/-! ## The arrays as the region finds them -/

variable (m : (ℓ : Loc nD τ sig) → Buf (Elt F) ℓ)

abbrev o' : DevRef τ sig := Proc.devRef .tc (main_v0 : Ref sig .tc)
abbrev opReshape : HloOp τ sig (Elt F) := StableHlo.reshape main_v0 main_v1 rfl shapeCasts_S1024x128_S1024x1x128

/-- The launch contents; -/
def V0 (d : Dev nD) : Valuation τ sig (Elt F) := fun b => m (d, b)
/-- after the SparseCore call the intermediate array holds the looked-up rows; -/
def V1 (d : Dev nD) : Valuation τ sig (Elt F) := Function.update (V0 m d) o' (looked m d)
/-- after the reshape its [1024, 1, 128] copy holds them too. -/
def V2 (d : Dev nD) : Valuation τ sig (Elt F) := (opReshape (F := F)).result (V1 m d)

/-- The TensorCore's buffers when the region is entered. -/
abbrev VR (d : Dev nD) (b : Ref sig .tc) : Buf (Elt F) ((d : Thread nD τ).loc b) := V2 m d (Proc.devRef .tc b)

/-- The reshaped looked-up rows: entry `(b, 0, k)` is entry `(b, k)` of the intermediate array. -/
def eArr (d : Dev nD) : Buf (Elt F) (eLoc d) :=
  fun i => shapeCast S1024x1x128 (looked m d) shapeCasts_S1024x128_S1024x1x128 i

theorem VR_v1 (d : Dev nD) : VR m d main_v1 = eArr m d := by
  show (opReshape (F := F)).result (V1 m d) (Proc.devRef .tc main_v1) = _
  rw [StableHlo.reshape_result]
  unfold V1
  rw [Function.update_self]
  rfl
theorem VR_arg0 (d : Dev nD) : VR m d main_arg0 = m (fLoc d) := by
  show (opReshape (F := F)).result (V1 m d) (Proc.devRef .tc main_arg0) = _
  rw [StableHlo.reshape_result_ne (h := show (main_arg0 : Ref sig .tc) ≠ main_v1 by decide)]
  unfold V1
  rw [Function.update_of_ne (show (Proc.devRef .tc (main_arg0 : Ref sig .tc) : DevRef τ sig) ≠ o' by decide)]
  rfl
theorem VR_v2 (d : Dev nD) : VR m d main_v2 = m (rLoc d) := by
  show (opReshape (F := F)).result (V1 m d) (Proc.devRef .tc main_v2) = _
  rw [StableHlo.reshape_result_ne (h := show (main_v2 : Ref sig .tc) ≠ main_v1 by decide)]
  unfold V1
  rw [Function.update_of_ne (show (Proc.devRef .tc (main_v2 : Ref sig .tc) : DevRef τ sig) ≠ o' by decide)]
  rfl

/-! ## The windows' blocks and the proof data -/

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (VR m d (Pipeline.arrRef spec1 w))

/-- The wait pairs the TensorCore may have recorded before and during the region: those at or below the level the
    launch's handshake state asks at the end. -/
def recBound (d : Dev nD) : Set (SemLoc sig × HIx 1) := {p | (K (F := F)).lev (SparseCore.T d, p.1) p.2 ≤ 8 * 1}

/-- The region's proof data on device `d`: the arrays as the region finds them; after the body at point `t` each
    input's buffer at its block and the output's at `blockOut` of the two input blocks; the invariant is the scoped
    buffers no window stages and the generator register, untouched; nothing is owed. -/
def dats (_ : Fin 1) (d : Dev nD) : Dat τ (Elt F) (HIx 1) ℕ UU ℕ cfg1 d where
  A w := VR m d (Pipeline.arrRef spec1 w)
  after w t := match w with
    | ⟨0, _⟩ => iblk m d 0 t
    | ⟨1, _⟩ => iblk m d 1 t
    | ⟨2, _⟩ => blockOut (iblk m d 0 t) (iblk m d 1 t)
  Φ _ := iprop(Pipeline.scopedRest spec1 d ∗ ∃ r, prngReg d r)
  q _ := fullShare
  owed _ := 0
  recorded _ := recBound (F := F) d

theorem A_eq (d : Dev nD) (w : Fin cfg1.W) : (dats m 0 d).A w = VR m d (Pipeline.arrRef spec1 w) := by
  dsimp only [dats]
theorem after1_0 (d : Dev nD) (t : Fin cfg1.N) : (dats m 0 d).after 0 t = iblk m d 0 t := by dsimp only [dats]
theorem after1_1 (d : Dev nD) (t : Fin cfg1.N) : (dats m 0 d).after 1 t = iblk m d 1 t := by dsimp only [dats]
theorem after1_2 (d : Dev nD) (t : Fin cfg1.N) : (dats m 0 d).after 2 t = blockOut (iblk m d 0 t) (iblk m d 1 t) := by dsimp only [dats]

/-- Each input's current staging buffer holds its block at every point: both inputs are fetched at every point. -/
theorem before1_0 (d : Dev nD) (t : Fin cfg1.N) (x) : (dats m 0 d).before 0 t x = iblk m d 0 t :=
  ((dats m 0 d).before_in_eq_fetched 0 rfl (fun _ => rfl) (fun _ _ _ => rfl)
    (fun t => by rw [after1_0]; unfold Dat.blockOf iblk; rw [A_eq]; try rfl) t x).trans
    (by unfold Dat.fetched Dat.blockOf iblk; rw [A_eq]; try rfl)
theorem before1_1 (d : Dev nD) (t : Fin cfg1.N) (x) : (dats m 0 d).before 1 t x = iblk m d 1 t :=
  ((dats m 0 d).before_in_eq_fetched 1 rfl (fun _ => rfl) (fun _ _ _ => rfl)
    (fun t => by rw [after1_1]; unfold Dat.blockOf iblk; rw [A_eq]; try rfl) t x).trans
    (by unfold Dat.fetched Dat.blockOf iblk; rw [A_eq]; try rfl)

/-! ## The body obligation -/

/-- What the body is called with at point `t`, -/
def bodyPre (d : Dev nD) (t : Fin cfg1.N) : sProp 𝕄 :=
  iprop((dats m 0 d).Φ t.castSucc ∗ (dats m 0 d).owesAt none t.castSucc
    ∗ (∃ x, owns (d : Thread nD τ) (st1_0 t) fullShare ((dats m 0 d).before 0 t x))
    ∗ (∃ x, owns (d : Thread nD τ) (st1_1 t) fullShare ((dats m 0 d).before 1 t x))
    ∗ (∃ x, owns (d : Thread nD τ) (st1_2 t) fullShare ((dats m 0 d).before 2 t x)))

/-- and what it returns. -/
def bodyPost (d : Dev nD) (t : Fin cfg1.N) : sProp 𝕄 :=
  iprop((dats m 0 d).Φ t.succ ∗ (dats m 0 d).owesAt none t.succ
    ∗ owns (d : Thread nD τ) (st1_0 t) fullShare ((dats m 0 d).after 0 t)
    ∗ owns (d : Thread nD τ) (st1_1 t) fullShare ((dats m 0 d).after 1 t)
    ∗ owns (d : Thread nD τ) (st1_2 t) fullShare ((dats m 0 d).after 2 t))

/-- The body at any point: the inputs' buffers hold their blocks, so the body's triple applies; the invariant and
    what the TensorCore owes pass through unread. -/
theorem sound_body (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dats m 0 d).Φ t.succ = (dats m 0 d).Φ t.castSucc from rfl,
    show (dats m 0 d).owesAt none t.succ = (dats m 0 d).owesAt none t.castSucc from rfl,
    after1_0, after1_1, after1_2]
  iintro ⟨HΦ, Ho, ⟨%x0, H0⟩, ⟨%x1, H1⟩, ⟨%x2, H2⟩⟩
  iapply (sound_kernel d Set.univ (grid1.coords t) _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) m 0 d) (defs₀ (F := F)) Variants.none none Set.univ := fun t => by
  rw [bigSep_W1, bigSep_W1]
  exact sound_body m d t

/-! ## The region as a step of the TensorCore's program -/

/-- No prefetched table. -/
abbrev adm : (p : Fin 1) → (pcfgs (F := F) p).Adm := fun p => (cfgs p).toPCfg_adm

/-- What the TensorCore owes and has recorded, as the launch's handshake state keeps it after the one call. -/
def owesSt (d : Dev nD) : sProp 𝕄 :=
  iprop(∃ W, ⌜(K (F := F)).WBelow (SparseCore.T d) W (8 * 1)⌝ ∗ owes (SparseCore.T d) (0 : CellTallies nD τ sig (HIx 1)) W)

theorem owesAt_intro (d : Dev nD) (t : Fin (cfg1.N + 1)) : owesSt (F := F) d ⊢ ((dats m 0 d).owesAt none t : sProp 𝕄) := by
  unfold owesSt Pipeline.Dat.owesAt Pipeline.owesWithin Pipeline.Dat.bound
  rw [show (dats m 0 d).owed t = 0 from rfl, show (dats m 0 d).recorded t = recBound (F := F) d from rfl]
  iintro ⟨%W, %hW, HO⟩
  iexists W; isplitr
  · ipureintro; exact fun p hp => Or.inl (hW p hp)
  iexact HO

theorem owesAt_elim (d : Dev nD) (t : Fin (cfg1.N + 1)) : ((dats m 0 d).owesAt none t : sProp 𝕄) ⊢ owesSt (F := F) d := by
  unfold owesSt Pipeline.Dat.owesAt Pipeline.owesWithin Pipeline.Dat.bound
  rw [show (dats m 0 d).owed t = 0 from rfl, show (dats m 0 d).recorded t = recBound (F := F) d from rfl]
  iintro ⟨%W, %hW, HO⟩
  iexists W; isplitr
  · ipureintro
    intro p hp
    rcases hW hp with h | ⟨w, s, rfl⟩
    · exact h
    · show (K (F := F)).lev _ none ≤ 8 * 1
      rw [SparseCore.Cfg.lev_none]; exact Nat.zero_le _
  iexact HO

/-- The three windows' arrays, whole, at given contents. -/
def arrs (d : Dev nD) (fr : Buf (Elt F) (rLoc d)) : sProp 𝕄 :=
  iprop((eLoc d ↦{fullShare} eArr m d) ∗ (fLoc d ↦{fullShare} m (fLoc d)) ∗ (rLoc d ↦{fullShare} fr))

theorem share_full (d : Dev nD) (w : Fin cfg1.W) : (dats m 0 d).share w = fullShare :=
  (dats m 0 d).share_full (fun _ => rfl) w

theorem arrays_eq (d : Dev nD) (Fa : (w : Fin cfg1.W) → Buf (Elt F) ((cfg1.win w).arr.view.loc (d : Thread nD τ))) :
    ((dats m 0 d).arrays Fa : sProp 𝕄)
      = iprop((eLoc d ↦{fullShare} Fa 0) ∗ (fLoc d ↦{fullShare} Fa 1) ∗ (rLoc d ↦{fullShare} Fa 2)) := by
  unfold Pipeline.Dat.arrays
  rw [bigSep_W1, share_full, share_full, share_full]
  simp only [Memref.view_whole, View.set_whole]

theorem prefHeld_emp (d : Dev nD) (q) (pf) :
    (Pipeline.prefHeld (Ix := HIx 1) (Name := ℕ) (U := UU) (Lvl := ℕ) (Val := Elt F) (pcfgs (F := F) 0).pre d q pf : sProp 𝕄) = BI.emp := by
  unfold Pipeline.prefHeld
  show bigSep (Finset.univ : Finset (Fin 0)) _ = _
  rw [Finset.univ_eq_empty, BI.bigSep_empty]

/-- The region as a segment: entered holding the three arrays (the looked-up rows reshaped, the feature array, the
    result array at anything), the generator register and the TensorCore's debts; left holding the same with the
    result array at what the pipeline's write-backs made of it. -/
def regSeg : Pipeline.RegionSeg (pcfgs (F := F)) adm (dats m) none defs₀ 𝒱₀ (K (F := F)).L (K (F := F)).lev 0 where
  win := winFacts1.to₀
  block_pos := block_pos1
  stage_whole := stage_whole1
  K := PEmpty
  osem k := k.elim
  ho := Pipeline.OwnSemFacts.none _
  hbody d := (body_obligation m d).loose
  hwaits := Pipeline.hwaits_of_owed_zero _ _ _ _ _ _ 0 fun _ _ => rfl
  pre d := iprop(arrs m d (m (rLoc d)) ∗ (∃ r, prngReg d r) ∗ owesSt (F := F) d)
  post d := iprop(arrs m d ((dats m 0 d).arrAt 2 cfg1.N) ∗ (∃ r, prngReg d r) ∗ owesSt (F := F) d)
  X d := iprop(∃ r, prngReg d r)
  Y d := iprop(∃ r, prngReg d r)
  Z _ := iprop(emp)
  hentry d := by
    rw [Pipeline.ownSems0_none, arrays_eq, prefHeld_emp]
    unfold arrs
    iintro ⟨⟨⟨He, Hf, Hr⟩, Hp, HO⟩, -, -⟩
    imodintro
    isplitl [He Hf Hr]
    · rw [show (dats m 0 d).arrAt 0 0 = eArr m d from (A_eq m d 0).trans (VR_v1 m d),
        show (dats m 0 d).arrAt 1 0 = m (fLoc d) from (A_eq m d 1).trans (VR_arg0 m d),
        show (dats m 0 d).arrAt 2 0 = m (rLoc d) from (A_eq m d 2).trans (VR_v2 m d)]
      isplitl [He]; · iexact He
      isplitl [Hf] <;> iassumption
    isplitr; · iempintro
    isplitl [HO]; · iapply (owesAt_intro m d 0); iexact HO
    isplitl [Hp]; · iexact Hp
    iempintro
  hin d := by
    rw [show (dats m 0 d).Φ 0 = iprop(Pipeline.scopedRest spec1 d ∗ ∃ r, prngReg d r) from rfl]
    iintro ⟨HX, -, HR⟩
    isplitl [HR]; · iexact HR
    iexact HX
  hout d := by
    rw [show (dats m 0 d).Φ (Fin.last _) = iprop(Pipeline.scopedRest spec1 d ∗ ∃ r, prngReg d r) from rfl, Pipeline.ownSems0_none]
    iintro ⟨HR, HX⟩
    isplitl [HX]; · iexact HX
    isplitr; · iempintro
    iexact HR
  hexit d := by
    rw [arrays_eq]
    unfold arrs
    iintro ⟨⟨He, Hf, Hr⟩, HO, HY, -⟩
    imodintro
    isplitl [He Hf Hr]
    · rw [show (dats m 0 d).arrAt 0 cfg1.N = eArr m d from ((dats m 0 d).arrAt_in 0 rfl _).trans ((A_eq m d 0).trans (VR_v1 m d)),
        show (dats m 0 d).arrAt 1 cfg1.N = m (fLoc d) from ((dats m 0 d).arrAt_in 1 rfl _).trans ((A_eq m d 1).trans (VR_arg0 m d))]
      isplitl [He]; · iexact He
      isplitl [Hf] <;> iassumption
    isplitl [HY]; · iexact HY
    iapply (owesAt_elim m d _); iexact HO

theorem regSeg_pre (d : Dev nD) :
    (regSeg m).pre d = iprop(arrs m d (m (rLoc d)) ∗ (∃ r, prngReg d r) ∗ owesSt (F := F) d) := rfl
theorem regSeg_post (d : Dev nD) :
    (regSeg m).post d = iprop(arrs m d ((dats m 0 d).arrAt 2 cfg1.N) ∗ (∃ r, prngReg d r) ∗ owesSt (F := F) d) := rfl

variable [∀ e, Nonempty (Elt F e)]

/-- The region's step on device `d`'s TensorCore. -/
theorem wp_region (d : Dev nD) {α : Type}
    (k : PUnit → Prog (TpuEff nD τ sig (Elt F) (ΛP (F := F)) .tc) α) (Q : α → sProp 𝕄) :
    iprop((iprop(boundary (d : Thread nD τ) ∗ (regSeg m).post d) -∗ wp frame (wpE (D (F := F)) 𝒱 (d : Thread nD τ) none) Set.univ (k ⟨⟩) Q)
        ∗ boundary (d : Thread nD τ) ∗ (regSeg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) k) Q :=
  Pipeline.RegionSeg.wp (pcfgs (F := F)) adm (dats m) none cellOf_inj EP defs₀ 𝒱₀ (K (F := F)).L (K (F := F)).lev (regSeg m) d none
    (fun _ h => nomatch h) k Q

end Cert.Proof.Kernel

end
-- ==== Proof.KernelSplit.lean ====
/-
  Dealing the arrays to the 32 workers and collecting them again.

  The table is only read, so its whole share is cut into 32 read shares, one per worker. The index vector and
  the intermediate array are cut by position: worker (c, i) holds entries 64 i + 32 c … 64 i + 32 c + 31 of the
  index vector and the same rows of the intermediate array; these 32 ranges are pairwise disjoint and cover
  0 … 1023. After the call every worker's rows hold the looked-up table rows, so the intermediate array as a whole
  holds them.
-/
import proofs.«204669_g5978594476505_cont_9to1_m_202_17_alg».proof.Proof.KernelSetup

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

/-! ## The workers' ranges -/

/-- Worker (c, i)'s first entry. -/
def base (c : Fin 2) (i : Fin 16) : Nat := 64 * i.val + 32 * c.val

theorem k0_off1_coords (c : Fin 2) (i : Fin 16) : k0_off1 (coordsV c i) = ![base c i] := k0_off1_eq _
theorem k0_off2_coords (c : Fin 2) (i : Fin 16) : k0_off2 (coordsV c i) = ![base c i, 0] := k0_off2_eq _

/-- Distinct workers' ranges of 32 entries do not meet. -/
theorem base_separated {c c' : Fin 2} {i i' : Fin 16} (h : (c, i) ≠ (c', i')) :
    base c i + 32 ≤ base c' i' ∨ base c' i' + 32 ≤ base c i := by
  have hne : ¬ (c.val = c'.val ∧ i.val = i'.val) := fun ⟨h1, h2⟩ => h (Prod.ext (Fin.ext h1) (Fin.ext h2))
  have := c.isLt; have := c'.isLt; have := i.isLt; have := i'.isLt
  unfold base
  omega

/-- A worker's index words are the entries of its range. -/
theorem iSet_eq (c : Fin 2) (i : Fin 16) :
    iSet (coordsV c i) = (Rect.unit (s := S1024) (k0_off1 (coordsV c i)) S32.size (k0_off1_inb (coordsV c i))).set :=
  View.set_slice_whole _ _

/-- A worker's rows of the intermediate array are the rows of its range. -/
theorem oSet_eq (c : Fin 2) (i : Fin 16) :
    oSet (coordsV c i) = (Rect.unit (s := S1024x128) (k0_off2 (coordsV c i)) S32x128.size (k0_off2_inb (coordsV c i))).set :=
  View.set_slice_whole _ _

theorem mem_iSet (c : Fin 2) (i : Fin 16) (j : S1024.Idx) :
    j ∈ iSet (coordsV c i) ↔ base c i ≤ (j 0).val ∧ (j 0).val < base c i + 32 := by
  rw [iSet_eq, Rect.mem_set_unit, k0_off1_coords]
  exact Fin.forall_fin_one

theorem mem_oSet (c : Fin 2) (i : Fin 16) (j : S1024x128.Idx) :
    j ∈ oSet (coordsV c i) ↔ base c i ≤ (j 0).val ∧ (j 0).val < base c i + 32 := by
  rw [oSet_eq, Rect.mem_set_unit, k0_off2_coords]
  refine Fin.forall_fin_two.trans ⟨fun h => h.1, fun h => ⟨h, Nat.zero_le _, ?_⟩⟩
  have h1 : (j 1).val < 128 := (j 1).isLt
  show (j 1).val < 0 + 128
  omega

theorem iSets_disjoint : ∀ p ∈ (Finset.univ : Finset (Fin 2 × Fin 16)), ∀ p' ∈ (Finset.univ : Finset (Fin 2 × Fin 16)),
    p ≠ p' → Disjoint (iSet (coordsV p.1 p.2)) (iSet (coordsV p'.1 p'.2)) := fun p _ p' _ h => by
  rw [Finset.disjoint_left]
  intro j hj hj'
  rw [mem_iSet] at hj hj'
  have := base_separated (c := p.1) (i := p.2) (c' := p'.1) (i' := p'.2) h
  omega

theorem oSets_disjoint : ∀ p ∈ (Finset.univ : Finset (Fin 2 × Fin 16)), ∀ p' ∈ (Finset.univ : Finset (Fin 2 × Fin 16)),
    p ≠ p' → Disjoint (oSet (coordsV p.1 p.2)) (oSet (coordsV p'.1 p'.2)) := fun p _ p' _ h => by
  rw [Finset.disjoint_left]
  intro j hj hj'
  rw [mem_oSet] at hj hj'
  have := base_separated (c := p.1) (i := p.2) (c' := p'.1) (i' := p'.2) h
  omega

/-- Entry `n` below 1024 lies in the range of worker (n % 64 / 32, n / 64). -/
theorem exists_worker (n : Nat) (hn : n < 1024) : ∃ p : Fin 2 × Fin 16, base p.1 p.2 ≤ n ∧ n < base p.1 p.2 + 32 :=
  ⟨(⟨n % 64 / 32, by omega⟩, ⟨n / 64, by omega⟩), by unfold base; dsimp only; omega, by unfold base; dsimp only; omega⟩

theorem iSets_cover : (Finset.univ : Finset (Fin 2 × Fin 16)).biUnion (fun p => iSet (coordsV p.1 p.2)) = Finset.univ := by
  ext j
  simp only [Finset.mem_biUnion, Finset.mem_univ, true_and, iff_true]
  obtain ⟨p, hp⟩ := exists_worker (j 0).val (j 0).isLt
  exact ⟨p, (mem_iSet p.1 p.2 j).2 hp⟩

theorem oSets_cover : (Finset.univ : Finset (Fin 2 × Fin 16)).biUnion (fun p => oSet (coordsV p.1 p.2)) = Finset.univ := by
  ext j
  simp only [Finset.mem_biUnion, Finset.mem_univ, true_and, iff_true]
  obtain ⟨p, hp⟩ := exists_worker (j 0).val (j 0).isLt
  exact ⟨p, (mem_oSet p.1 p.2 j).2 hp⟩

/-! ## The arrays, whole, as the workers' parts -/

/-- The index vector, whole, is the 32 workers' ranges of it. -/
theorem iPts_split (d : Dev nD) (f : Buf (Elt F) (iLoc d)) :
    (iLoc d ↦{fullShare} f : sProp 𝕄)
      = bigSep Finset.univ fun c : Fin 2 => bigSep Finset.univ fun i : Fin 16 => iLoc d ↦[iSet (coordsV c i)]{fullShare} f := by
  rw [← SparseCore.bigSep_product Finset.univ Finset.univ (fun p : Fin 2 × Fin 16 => (iLoc d ↦[iSet (coordsV p.1 p.2)]{fullShare} f : sProp 𝕄)),
    Finset.univ_product_univ, ← pointsTo_biUnion Finset.univ (ℓ := iLoc d) (fun p : Fin 2 × Fin 16 => iSet (coordsV p.1 p.2)) iSets_disjoint,
    iSets_cover]

/-- The intermediate array, whole, is the 32 workers' rows of it. -/
theorem oPts_split (d : Dev nD) (f : Buf (Elt F) (oLoc d)) :
    (oLoc d ↦{fullShare} f : sProp 𝕄)
      = bigSep Finset.univ fun c : Fin 2 => bigSep Finset.univ fun i : Fin 16 => oLoc d ↦[oSet (coordsV c i)]{fullShare} f := by
  rw [← SparseCore.bigSep_product Finset.univ Finset.univ (fun p : Fin 2 × Fin 16 => (oLoc d ↦[oSet (coordsV p.1 p.2)]{fullShare} f : sProp 𝕄)),
    Finset.univ_product_univ, ← pointsTo_biUnion Finset.univ (ℓ := oLoc d) (fun p : Fin 2 × Fin 16 => oSet (coordsV p.1 p.2)) oSets_disjoint,
    oSets_cover]

/-- The table at the whole share is the table at the 32 workers' read shares. -/
theorem tPts_split (d : Dev nD) (f : Buf (Elt F) (tLoc d)) :
    (tLoc d ↦{fullShare} f : sProp 𝕄)
      = bigSep Finset.univ fun c : Fin 2 => bigSep Finset.univ fun i : Fin 16 => tLoc d ↦{tShare c i} f := by
  rw [pointsTo_piecesOf Finset.univ f (o := 2) (by decide) fullShare]
  exact bigSep_congr fun c _ => pointsTo_piecesOf Finset.univ f (o := 16) (by decide) _

variable (m : (ℓ : Loc nD τ sig) → Buf (Elt F) ℓ)
variable [FloatOps F]

/-- The three arrays, whole, are the 32 workers' operands. -/
theorem deal (d : Dev nD) :
    iprop((tLoc d ↦{fullShare} m (tLoc d)) ∗ (iLoc d ↦{fullShare} m (iLoc d)) ∗ (∃ f, oLoc d ↦{fullShare} f))
      ⊢ (bigSep Finset.univ fun c : Fin 2 => bigSep Finset.univ fun i : Fin 16 => goRes m d c i : sProp 𝕄) := by
  have ho : ∀ f : Buf (Elt F) (oLoc d), (oLoc d ↦{fullShare} f : sProp 𝕄)
      ⊢ bigSep Finset.univ fun c : Fin 2 => bigSep Finset.univ fun i : Fin 16 => iprop(∃ f, oLoc d ↦[oSet (coordsV c i)]{fullShare} f) := fun f => by
    have hstep : ∀ (c : Fin 2) (i : Fin 16), (oLoc d ↦[oSet (coordsV c i)]{fullShare} f : sProp 𝕄)
        ⊢ iprop(∃ f, oLoc d ↦[oSet (coordsV c i)]{fullShare} f) := fun c i => by
      iintro H; iexists f; iexact H
    rw [oPts_split]
    exact bigSep_mono fun c _ => bigSep_mono fun i _ => hstep c i
  unfold goRes
  simp only [bigSep_sep']
  rw [← tPts_split, ← iPts_split]
  iintro ⟨Ht, Hi, %f, Ho⟩
  isplitl [Ht]; · iexact Ht
  isplitl [Hi]; · iexact Hi
  iapply (ho f); iexact Ho

/-- The 32 workers' results are the three arrays, whole, the intermediate one at the looked-up rows. -/
theorem collect (d : Dev nD) :
    (bigSep Finset.univ fun c : Fin 2 => bigSep Finset.univ fun i : Fin 16 => tdRes m d c i : sProp 𝕄)
      ⊢ iprop((tLoc d ↦{fullShare} m (tLoc d)) ∗ (iLoc d ↦{fullShare} m (iLoc d)) ∗ (oLoc d ↦{fullShare} looked m d)) := by
  unfold tdRes
  simp only [bigSep_sep']
  rw [← tPts_split, ← iPts_split, ← oPts_split]

end Cert.Proof.Kernel

end
-- ==== Proof.KernelMain.lean ====
/-
  The TensorCore's program, the launch element and the reading of the final memory.

  The TensorCore deals the three arrays the SparseCore call works on to the 32 workers, makes the call, collects
  them (the intermediate array now holds the looked-up rows), runs the reshape, and enters the region holding the
  reshaped rows, the feature array and the result array. At the end it holds the three argument arrays at their
  launch contents and the result array at what the region's write-backs made of it.
-/
import proofs.«204669_g5978594476505_cont_9to1_m_202_17_alg».proof.Proof.KernelRegion
import proofs.«204669_g5978594476505_cont_9to1_m_202_17_alg».proof.Proof.KernelSplit

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

abbrev e' : DevRef τ sig := Proc.devRef .tc (main_v1 : Ref sig .tc)

theorem unscopedBufs_eq (d : Dev nD) (W : (b : Ref sig .tc) → Buf (Elt F) ((d.tc : Thread nD τ).loc b)) :
    (unscopedBufs d W : sProp 𝕄) = iprop((fLoc d ↦{fullShare} W main_arg0) ∗ (iLoc d ↦{fullShare} W main_arg1) ∗ (tLoc d ↦{fullShare} W main_arg2)
      ∗ (oLoc d ↦{fullShare} W main_v0) ∗ (eLoc d ↦{fullShare} W main_v1) ∗ (rLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The two buffers the reshape works on. -/
abbrev S2 : Finset (DevRef τ sig) := {o', e'}

theorem held_S2 (d : Dev nD) (W : Valuation τ sig (Elt F)) :
    (held (T d) S2 W : sProp 𝕄) = iprop((oLoc d ↦{fullShare} W o') ∗ (eLoc d ↦{fullShare} W e')) := by
  unfold held S2
  rw [SparseCore.bigSep_insert' (by decide), bigSep_singleton]

theorem hReshape : (opReshape (F := F)).bufs ⊆ S2 := show ({o', e'} : Finset (DevRef τ sig)) ⊆ S2 by decide

theorem V1_o (d : Dev nD) : V1 m d o' = looked m d := Function.update_self _ _ _
theorem V1_e (d : Dev nD) : V1 m d e' = m (eLoc d) := Function.update_of_ne (show e' ≠ o' by decide) _ _
theorem V2_o (d : Dev nD) : (opReshape (F := F)).result (V1 m d) o' = looked m d :=
  ((opReshape (F := F)).result_of_not_mem (V1 m d) (b := o') (show o' ∉ ({e'} : Finset (DevRef τ sig)) by decide)).trans (V1_o m d)
theorem V2_e (d : Dev nD) : (opReshape (F := F)).result (V1 m d) e' = eArr m d := VR_v1 m d

theorem held_before (d : Dev nD) :
    (held (T d) S2 (V1 m d) : sProp 𝕄) = iprop((oLoc d ↦{fullShare} looked m d) ∗ (eLoc d ↦{fullShare} m (eLoc d))) := by
  rw [held_S2, V1_o, V1_e]
theorem held_after (d : Dev nD) :
    (held (T d) S2 ((opReshape (F := F)).result (V1 m d)) : sProp 𝕄) = iprop((oLoc d ↦{fullShare} looked m d) ∗ (eLoc d ↦{fullShare} eArr m d)) := by
  rw [held_S2, V2_o, V2_e]

/-! ## What the call takes and hands back -/

theorem st0_eq (d : Dev nD) : (bigSep Finset.univ fun c : Fin ((K (F := F)).nCore 0) => (P m).st 0 d c)
    = bigSep Finset.univ fun c : Fin 2 => bigSep Finset.univ fun i : Fin 16 => goRes m d c i := rfl
theorem dn0_eq (d : Dev nD) : (bigSep Finset.univ fun c : Fin ((K (F := F)).nCore 0) => (P m).dn 0 d c)
    = bigSep Finset.univ fun c : Fin 2 => bigSep Finset.univ fun i : Fin 16 => tdRes m d c i := rfl

/-- After the one call the TensorCore owes nothing: its handshake state is its debts (none) beside the rest. -/
theorem tcSt_split (d : Dev nD) : ∃ R : sProp 𝕄, ((K (F := F)).tcSt EH d 1 : sProp 𝕄) = iprop(owesSt (F := F) d ∗ R) :=
  ⟨_, by unfold SparseCore.Cfg.tcSt owesSt; rw [(K (F := F)).Otc_end d (le_refl 1)]⟩

/-! ## @main on the TensorCore -/

/-- The region's staging cells' ghost state, dealt at the launch. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claim: the three arguments at their launch contents, the result at what the region made. -/
def FIN (d : Dev nD) : sProp 𝕄 :=
  iprop((fLoc d ↦{fullShare} m (fLoc d)) ∗ (iLoc d ↦{fullShare} m (iLoc d)) ∗ (tLoc d ↦{fullShare} m (tLoc d))
    ∗ (rLoc d ↦{fullShare} (dats m 0 d).arrAt 2 cfg1.N))

/-- The region's call in the whole program's label signature is the lift of the call in the inner one. -/
theorem region_prog_eq :
    (Prog.lift (TpuEff.customCall (SparseCore.inner (Pipeline.entry (0 : Fin 1))) ()) :
        Prog (TpuEff nD τ sig (Elt F) (SparseCore.Sig (ΛP (F := F)) 1) .tc) PUnit)
      = SparseCore.liftProg (Q := 1)
          (Prog.op (TpuEff.customCall (Λ := ΛP (F := F)) (Pipeline.entry (0 : Fin 1)) ()) fun _ => Prog.ret PUnit.unit) := by
  chain_rfl

/-- The staging cells' component of the launch element, as the pipeline library names it. -/
theorem own_EP (x : UP) :
    (BI.own (((Emb.inl : Emb UP (UP × Counters)).trans (embR (A := UH) (B := UP × Counters))) x) : sProp 𝕄) ⊢ BI.own ((EP (F := F)) x) := by
  unfold EP; exact .rfl

variable [∀ e, Nonempty (Elt F e)]

theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d
  unfold SparseCore.Cfg.tcRes Gd
  rw [unscopedBufs_eq, hR]
  simp only [main, wp_bind, wp_pure]
  iintro ⟨#Hctx, Hst, ⟨Hb, ⟨Hf, Hi, Ht, Ho, He, Hr⟩, -, Hprng⟩, Hg, Htk⟩
  ihave Hgo := (deal m d) $$ [Ht Hi Ho]
  · isplitl [Ht]; · iexact Ht
    isplitl [Hi]; · iexact Hi
    iexists _; iexact Ho
  iapply ((K (F := F)).wp_run (D (F := F)) 𝒱 (EH := EH) (P := P m) κ d 0) $$ [Hst Hgo Hb Hf He Hr Hprng Hg Htk]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hcol := (collect m d) $$ Hdn'
  icases Hcol with ⟨Ht, Hi, Ho⟩
  ihave Hst' := (Entails.of_eq (show ((K (F := F)).tcSt EH d ((0 : Fin 1).val + 1) : sProp 𝕄) = iprop(owesSt (F := F) d ∗ R) from hR)) $$ Hst
  icases Hst' with ⟨HO, HR⟩
  -- the reshape, over the intermediate array and its [1024, 1, 128] copy
  iapply (wp_hlo_within 𝒱 (SparseCore.T d) none Set.univ (op := opReshape) (S := S2) hReshape (V := V1 m d)) $$ [Hb Ho He]
  · isplitl [Hb]; · iexact Hb
    iapply (Entails.of_eq (held_before m d).symm)
    isplitl [Ho]; · iexact Ho
    iexact He
  iintro ⟨Hb, Hheld⟩
  ihave Hh := (Entails.of_eq (held_after (F := F) m d)) $$ Hheld
  icases Hh with ⟨Ho, He⟩
  rw [wp_ret]; imodintro
  -- the region, entered through the lifted program
  rw [region_prog_eq]
  iapply ((K (F := F)).wp_liftProg (D (F := F)) 𝒱 (SparseCore.T d) Set.univ none _ _)
  ihave Hlev := (SparseCore.Cfg.ctx_levAts κ) $$ Hctx
  iapply (wp_region m d (fun _ => .ret ⟨⟩) _) $$ [Hf Hr Hprng Hg Htk Ht Hi HO HR Hb Ho He Hlev]
  isplitl [Ht Hi HR Ho]
  · iintro ⟨Hb, Hpost⟩
    ihave Hp := (Entails.of_eq (regSeg_post (F := F) m d)) $$ Hpost
    unfold arrs
    icases Hp with ⟨⟨He, Hf, Hr⟩, Hprng, HO⟩
    rw [wp_ret]; imodintro; imodintro
    unfold FIN
    isplitl [HO HR]
    · isplitl [HO]; · iexact HO
      iexact HR
    isplitl [Hf]; · iexact Hf
    isplitl [Hi]; · iexact Hi
    isplitl [Ht]; · iexact Ht
    iexact Hr
  isplitl [Hb]; · iexact Hb
  isplitl [Hf Hr Hprng HO He]
  · iapply (Entails.of_eq (regSeg_pre (F := F) m d).symm)
    unfold arrs
    isplitl [He Hf Hr]
    · isplitl [He]; · iexact He
      isplitl [Hf]; · iexact Hf
      iexact Hr
    isplitl [Hprng]; · iexists _; iexact Hprng
    iexact HO
  isplitl [Hlev]; · iexact Hlev
  isplitl [Hg]; · iexact Hg
  iexact Htk

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- The staging cells' ghost state, one pipeline per device, regrouped per device. -/
theorem ghost_regroup :
    iprop((bigSep Finset.univ fun d : Dev nD => bigSep Finset.univ fun p : Fin 1 => Pipeline.cellsGhost (Pipeline.pin (pcfgs (F := F)) adm) EP p d)
        ∗ (bigSep Finset.univ fun d : Dev nD => bigSep Finset.univ fun p : Fin 1 => (Pipeline.toksInit (Pipeline.pin (pcfgs (F := F)) adm) EP p d : sProp 𝕄)))
      ⊢ bigSep Finset.univ fun d : Dev nD => Gd (F := F) d := by
  unfold Gd
  refine (BIClass.sep_mono (Entails.of_eq (bigSep_congr fun d _ => BI.bigSep_univ_of_subsingleton (0 : Fin 1)))
    (Entails.of_eq (bigSep_congr fun d _ => BI.bigSep_univ_of_subsingleton (0 : Fin 1)))).trans ?_
  exact Entails.of_eq (bigSep_sep Finset.univ
    (fun d : Dev nD => Pipeline.cellsGhost (Pipeline.pin (pcfgs (F := F)) adm) EP 0 d)
    (fun d : Dev nD => (Pipeline.toksInit (Pipeline.pin (pcfgs (F := F)) adm) EP 0 d : sProp 𝕄))).symm

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HRest⟩
  ihave H2 := (own_pair_emb (embR (A := UH) (B := UP × Counters)) _ _) $$ HRest
  icases H2 with ⟨HP0, -⟩
  ihave HP := (own_EP (F := F) _) $$ HP0
  imod (Pipeline.fund_ghost (Pipeline.pin (pcfgs (F := F)) adm) (EP (F := F)) cellOf_inj) $$ HP with ⟨Hcg, Htk⟩
  imodintro
  isplitl [HH]; · iexact HH
  isplitl [Hcg Htk]
  · iapply (ghost_regroup (F := F))
    isplitl [Hcg]; · iexact Hcg
    iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (rLoc d) = (dats m 0 d).arrAt 2 cfg1.N ∧ s'.mem.mem (fLoc d) = m (fLoc d)
    ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨Hf, Hi, Ht, Hr⟩, HSI⟩
  icombine HSI Hf gives %hf
  icombine HSI Hi gives %hi
  icombine HSI Ht gives %ht
  icombine HSI Hr gives %hr
  ipureintro
  exact ⟨funext fun j => hr j (Finset.mem_univ j), funext fun j => hf j (Finset.mem_univ j),
    funext fun j => hi j (Finset.mem_univ j), funext fun j => ht j (Finset.mem_univ j)⟩

end Cert.Proof.Kernel

end
-- ==== Proof.KernelValue.lean ====
/-
  The result array as one function of the argument arrays.

  At a grid point the body leaves in its output block the looked-up rows at middle position 0 and the feature
  rows at middle positions 1 to 200; the block of the looked-up rows is read off the reshaped intermediate array,
  whose entry (b, 0, k) is entry (b, k) of the intermediate array, that is, entry k of the table row that index
  word b names. The 8 output blocks are consecutive groups of 128 batch rows, so they cover the result array, and
  the array ends holding `Cert.Spec.G` of the three arguments.
-/
import proofs.«204669_g5978594476505_cont_9to1_m_202_17_alg».proof.Proof.KernelRegion

set_option maxRecDepth 16384

noncomputable section

namespace Cert.Proof.Kernel

open Cert.Kernel Cert.Kernel.Gen

open Idealize.ShloMosaic Idealize.ShloMosaic.TcCoe
open Idealize.ShloMosaic.SparseCore.Cfg (HIx)
open Idealize.SL Idealize.SL.Sem
open Idealize.ShloMosaic.ValueIdx
open Idealize.ShloMosaic.Pipeline (Dat)

variable {F : FTy → Type} [FloatOps F]
variable (m : (ℓ : Loc nD τ sig) → Buf (Elt F) ℓ)

/-! ## The output block, by the middle coordinate -/

theorem hz3 : (![0, 0, 0] : Fin 3 → Nat) = fun _ => 0 := funext fun a => by fin_cases a <;> rfl

/-- The output block as a function of the two input blocks. -/
def blockFn (x0 : Vec F S128x1x128 .f32) (x1 : Vec F S128x200x128 .f32) : Vec F S128x201x128 .f32 :=
  fun y =>
    if (y 1).val = 0 then x0 (ix3 (y 0) (0 : Fin 1) (y 2))
    else x1 (ix3 (y 0) ⟨(y 1).val - 1, by have h : (y 1).val < 201 := (y 1).isLt; omega⟩ (y 2))

theorem blockOut_eq (x0 : Vec F S128x1x128 .f32) (x1 : Vec F S128x200x128 .f32) : blockOut x0 x1 = blockFn x0 x1 := by
  funext y
  unfold blockOut
  refine View.canon_apply_of_pieces (blockFn x0 x1) _ ?_ y (blockOut_cover _ _ y)
  intro p hp x
  rcases List.mem_cons.mp hp with rfl | hp
  · -- the second store: the feature rows, one position further along the middle axis
    show View.ld x1 rIn1 x = blockFn x0 x1 ((rOut1 : Rect S128x201x128).emb x)
    rw [View.ld_unit_zero (S := S128x200x128) hz3]
    unfold blockFn
    have h1 : (((rOut1 : Rect S128x201x128).emb x) 1).val = 1 + 1 * (x 1).val := rfl
    rw [if_neg (by rw [h1]; omega)]
    congr 1
    funext a
    apply Fin.ext
    match a with
    | ⟨0, _⟩ => show (x 0).val = 0 + 1 * (x 0).val; omega
    | ⟨1, _⟩ => show (x 1).val = (1 + 1 * (x 1).val) - 1; omega
    | ⟨2, _⟩ => show (x 2).val = 0 + 1 * (x 2).val; omega
  · -- the first store: the looked-up rows at middle position 0
    obtain rfl := List.mem_singleton.mp hp
    show k1_pay1 (View.ld x0 rIn0) x = blockFn x0 x1 ((rOut0 : Rect S128x201x128).emb x)
    unfold k1_pay1
    rw [shapeCast_self, View.ld_unit_zero (S := S128x1x128) hz3]
    unfold blockFn
    have hx1 : (x 1).val < 1 := (x 1).isLt
    have h1 : (((rOut0 : Rect S128x201x128).emb x) 1).val = 0 + 1 * (x 1).val := rfl
    rw [if_pos (by rw [h1]; omega)]
    congr 1
    funext a
    apply Fin.ext
    match a with
    | ⟨0, _⟩ => show (x 0).val = 0 + 1 * (x 0).val; omega
    | ⟨1, _⟩ => show (x 1).val = 0; omega
    | ⟨2, _⟩ => show (x 2).val = 0 + 1 * (x 2).val; omega

/-! ## The reshaped intermediate array at an entry -/

theorem eArr_apply (d : Dev nD) (j : S1024x1x128.Idx) : eArr m d j = looked m d (ix2 (j 0) (j 2)) := by
  unfold eArr
  refine shapeCast_apply _ _ j (ix2 (j 0) (j 2)) ?_
  rw [Shape.rowMajor_val_two, Shape.rowMajor_val_three]
  have h1 : (j 1).val < 1 := (j 1).isLt
  show (j 0).val * 128 + (j 2).val = ((j 0).val * 1 + (j 1).val) * 128 + (j 2).val
  omega

/-! ## From the blocks to the array -/

/-- What the result array ends holding. -/
def Gfin (d : Dev nD) : Buf (Elt F) (rLoc d) := Cert.Spec.G (m (fLoc d)) (m (iLoc d)) (m (tLoc d))

/-- The printed index maps, decided over the 8 grid points: all three windows move together along the batch axis
    and sit at block 0 on the other two. -/
theorem idx_facts : ∀ t : Fin cfg1.N, win1_0.index t (0 : Fin 3) = win1_2.index t (0 : Fin 3)
    ∧ win1_0.index t (1 : Fin 3) = 0 ∧ win1_0.index t (2 : Fin 3) = 0
    ∧ win1_1.index t (0 : Fin 3) = win1_2.index t (0 : Fin 3)
    ∧ win1_1.index t (1 : Fin 3) = 0 ∧ win1_1.index t (2 : Fin 3) = 0
    ∧ win1_2.index t (1 : Fin 3) = 0 ∧ win1_2.index t (2 : Fin 3) = 0 ∧ win1_2.index t (0 : Fin 3) ≤ 7 :=
  (by decide +kernel : ∀ t : Fin grid1.N, _)

/-- Every group of 128 batch rows is some point's block. -/
theorem idx_onto : ∀ q0 : Fin 8, ∃ t : Fin cfg1.N, win1_2.index t = ![q0.val, 0, 0] :=
  (by decide +kernel : ∀ q0 : Fin 8, ∃ t : Fin grid1.N, win1_2.index t = ![q0.val, 0, 0])

/-- What point `t` writes back is block `t` of `Gfin`. -/
theorem flushed_eq (d : Dev nD) (t : Fin cfg1.N) :
    (dats m 0 d).flushed 2 t = ((cfg1.win 2).blk t).view.read (Elt F) (Gfin m d) := by
  show (cfg1.win 2).cut (grid1.coords t) ((dats m 0 d).after 2 t) = _
  rw [after1_2, blockOut_eq]
  obtain ⟨e0, e1, e2, f0, f1, f2, g1, g2, g0⟩ := idx_facts t
  funext j
  show blockFn (iblk m d 0 t) (iblk m d 1 t) j = Gfin m d (((cfg1.win 2).blk t).view.emb j)
  have hj0 : (j 0).val < 128 := (j 0).isLt
  have hj1 : (j 1).val < 201 := (j 1).isLt
  have hj2 : (j 2).val < 128 := (j 2).isLt
  have hE0 : ((((cfg1.win 2).blk t).view.emb j) 0).val = win1_2.index t (0 : Fin 3) * 128 + 1 * (j 0).val := rfl
  have hE1 : ((((cfg1.win 2).blk t).view.emb j) 1).val = win1_2.index t (1 : Fin 3) * 201 + 1 * (j 1).val := rfl
  have hE2 : ((((cfg1.win 2).blk t).view.emb j) 2).val = win1_2.index t (2 : Fin 3) * 128 + 1 * (j 2).val := rfl
  unfold blockFn Gfin Cert.Spec.G
  by_cases h : (j 1).val = 0
  · rw [if_pos h, if_pos (by rw [hE1]; omega)]
    unfold iblk
    show VR m d main_v1 (((cfg1.win 0).blk t).view.emb (ix3 (j 0) (0 : Fin 1) (j 2))) = _
    rw [VR_v1, eArr_apply]
    unfold looked
    have hA : (((cfg1.win 0).blk t).view.emb (ix3 (j 0) (0 : Fin 1) (j 2))) 0 = (((cfg1.win 2).blk t).view.emb j) 0 :=
      Fin.ext (by
        show win1_0.index t (0 : Fin 3) * 128 + 1 * (j 0).val = _
        rw [hE0]; omega)
    have hB : (((cfg1.win 0).blk t).view.emb (ix3 (j 0) (0 : Fin 1) (j 2))) 2 = (((cfg1.win 2).blk t).view.emb j) 2 :=
      Fin.ext (by
        show win1_0.index t (2 : Fin 3) * 128 + 1 * (j 2).val = _
        rw [hE2]; omega)
    rw [hA, hB]
    rfl
  · rw [if_neg h, if_neg (by rw [hE1]; omega)]
    unfold iblk
    show VR m d main_arg0 (((cfg1.win 1).blk t).view.emb (ix3 (j 0) (⟨(j 1).val - 1, by omega⟩ : Fin 200) (j 2))) = _
    rw [VR_arg0]
    congr 1
    funext a
    apply Fin.ext
    match a with
    | ⟨0, _⟩ =>
      show win1_1.index t (0 : Fin 3) * 128 + 1 * (j 0).val = win1_2.index t (0 : Fin 3) * 128 + 1 * (j 0).val
      omega
    | ⟨1, _⟩ =>
      show win1_1.index t (1 : Fin 3) * 200 + 1 * ((j 1).val - 1) = (win1_2.index t (1 : Fin 3) * 201 + 1 * (j 1).val) - 1
      omega
    | ⟨2, _⟩ =>
      show win1_1.index t (2 : Fin 3) * 128 + 1 * (j 2).val = win1_2.index t (2 : Fin 3) * 128 + 1 * (j 2).val
      omega

/-- An index of the result array is in point `t`'s block iff each coordinate is in the block's range. -/
theorem mem_blk (t : Fin cfg1.N) (i : S1024x201x128.Idx) :
    i ∈ ((cfg1.win 2).blk t).view.set ↔ ∀ a : Fin 3, win1_2.index t a * S128x201x128.size a ≤ (i a).val
      ∧ (i a).val < win1_2.index t a * S128x201x128.size a + S128x201x128.size a := by
  show i ∈ ((View.whole main_v2).slice (win1_2.rect t)).set ↔ _
  rw [View.set_slice_whole, Rect.mem_set_unit]
  exact Iff.rfl

/-- The 8 blocks cover the result array: batch row `b` lies in block `b / 128`. -/
theorem covered (i : S1024x201x128.Idx) :
    ∃ t : Fin cfg1.N, (cfg1.win 2).flush t = true ∧ i ∈ ((cfg1.win 2).blk t).view.set := by
  have hi0 : (i 0).val < 1024 := (i 0).isLt
  have hi1 : (i 1).val < 201 := (i 1).isLt
  have hi2 : (i 2).val < 128 := (i 2).isLt
  obtain ⟨t, ht⟩ := idx_onto ⟨(i 0).val / 128, by omega⟩
  have q0 : win1_2.index t (0 : Fin 3) = (i 0).val / 128 := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 128 ≤ (i 0).val ∧ (i 0).val < win1_2.index t (0 : Fin 3) * 128 + 128; omega
  | ⟨1, _⟩ => show win1_2.index t (1 : Fin 3) * 201 ≤ (i 1).val ∧ (i 1).val < win1_2.index t (1 : Fin 3) * 201 + 201; omega
  | ⟨2, _⟩ => show win1_2.index t (2 : Fin 3) * 128 ≤ (i 2).val ∧ (i 2).val < win1_2.index t (2 : Fin 3) * 128 + 128; omega

/-- The result array after the region: `Cert.Spec.G` of the three argument arrays. -/
theorem final (d : Dev nD) : (dats m 0 d).arrAt 2 cfg1.N = Gfin m d :=
  (dats m 0 d).arrAt_eq_of_cover 2 (Gfin m d) (fun t _ => flushed_eq m d t) covered

end Cert.Proof.Kernel

end
-- ==== Proof.KernelTile.lean ====
/-
  One vector subcore's task of the gather kernel, proved once at a symbolic place.

  The worker at grid coordinates `L` copies its 32 index words into a scratch list, gathers the 32 table rows
  the list names into a scratch block, and copies the block to its 32 rows of the intermediate array. Each copy
  has a semaphore of its own and is waited for right after its issue, so no copy's ends are touched while it is
  pending. From a read share of the table, the worker's index words and its rows of the intermediate array at
  any contents, the task ends with the same share and words and its rows holding, at row `b`, the table row
  that index word `b` names — provided every index word is below the table's row count, which is what lets
  the gather's engine serve every entry of the list.
-/
import proofs.«204669_g5978594476505_cont_9to1_m_202_17_alg».proof.Proof.KernelSetup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)

/-! ## The task's names -/

section Tile

variable (d : Dev nD) (L : grid0.Coords)

/-- The SparseCore and the vector subcore that run the task at grid coordinates `L`. -/
abbrev cV (L : grid0.Coords) : Fin τ.nSC := (L 0).castLE hcore0
abbrev jV (L : grid0.Coords) : Fin τ.nSub := (L 1).castLE hsub0

/-- The scratch list of index words and the scratch block of gathered rows. -/
abbrev sI : Memref sig .scVector .vmem S32 .i32 := Memref.whole cc0_scratch0
abbrev sR : Memref sig .scVector .vmem S32x128 .f32 := Memref.whole cc0_scratch1

/-- The three copies' semaphores as cells of the subcore. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

variable [FloatOps F]

omit [FloatOps F] in
/-- The subcore's scoped semaphores at zero: the three copies' and the rest. -/
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The buffers as the program's memrefs name them. -/
theorem pts_tV (q : PosShare TreeShare) (f : Buf (Elt F) (tLoc d)) :
    ((tV).view.loc (V d (cV L) (jV L)) ↦{q} f : sProp 𝕄) = tLoc d ↦{q} f := rfl
omit [FloatOps F] in
theorem pts_iSlice (f : Buf (Elt F) (iLoc d)) :
    ((iSlice L).view.loc (V d (cV L) (jV L)) ↦[(iSlice L).view.set]{fullShare} f : sProp 𝕄) = iLoc d ↦[iSet L]{fullShare} f := rfl
omit [FloatOps F] in
theorem pts_oSlice (f : Buf (Elt F) (oLoc d)) :
    ((oSlice L).view.loc (V d (cV L) (jV L)) ↦[(oSlice L).view.set]{fullShare} f : sProp 𝕄) = oLoc d ↦[oSet L]{fullShare} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The scratch list, once the worker's index words are copied into it, holds words below the table's row count,
    whatever it held before: each is one of the worker's index words. -/
theorem idx_inb (hpre : ∀ d : Dev nD, Cert.Spec.InRange (m (iLoc d))) (g : Buf (Elt F) ((sI).view.loc (V d (cV L) (jV L)))) (x : S32.Idx) :
    ((sI).view.read (Elt F) ((sI).view.write (Elt F) g (ReadAs.same.apply ((iSlice L).view.read (Elt F) (m (iLoc d)))) Finset.univ) x).toNat
      < 100000 := by
  rw [View.read_write_univ]
  exact hpre d _

/-! ## The value -/

/-- The whole table, sliced whole: the gather's source as the program names it. -/
abbrev tVs : Memref sig .scVector .hbm S100000x128 .f32 :=
  (tV).slice (Rect.unit (s := S100000x128) ![0, 0] S100000x128.size inb_S100000x128_S100000x128_0_0) (fun _ => rfl)

omit [FloatOps F] in
/-- After one write through a view's whole shape, the view's elements hold any contents the view reads as the
    payload. -/
theorem writes_whole_eq_on {κ : Kind} {sp : Space} {s : Shape} {e : EltTy} (v : View sig κ sp s e) (f G : v.ty.Contents (Elt F))
    (P : s.Idx → Elt F e) (h : ∀ x, P x = v.read (Elt F) G x) : ∀ y ∈ v.set, v.writes (Elt F) f [⟨Rect.whole s, P⟩] y = G y := by
  intro y hy
  obtain ⟨x, -, rfl⟩ := Finset.mem_map.mp hy
  have h1 := View.read_writes_cons_emb v f (Rect.whole s) P [] x
  rw [Rect.emb_whole_apply, h x, View.read_apply, View.read_apply] at h1
  exact (cast_inj _).mp h1

/-- Entry `x` of what the gather delivers — the table read at `x`'s own column and, for its row, at the row that
    entry `x 0` of the scratch list names — is what the looked-up array holds at `x`'s place in the worker's rows:
    the list's entry `k` is index word `off + k`, and row `k` of the worker's rows is row `off + k`. -/
theorem gathered_eq (hpre : ∀ d : Dev nD, Cert.Spec.InRange (m (iLoc d)))
    (fs : Buf (Elt F) ((sI).view.loc (V d (cV L) (jV L))))
    (hn : S32.numel = S32x128.size gathers_S100000x128_S32x128.axis')
    (hin : ∀ x, ((sI).view.read (Elt F) ((sI).view.write (Elt F) fs (ReadAs.same.apply ((iSlice L).view.read (Elt F) (m (iLoc d)))) Finset.univ) x).toNat
      < S100000x128.size gathers_S100000x128_S32x128.axis) (x : S32x128.Idx) :
    SparseCore.gatherPayload gathers_S100000x128_S32x128 ((tVs).view.read (Elt F) (m (tLoc d)))
        (SparseCore.rows ((sI).view.read (Elt F) ((sI).view.write (Elt F) fs (ReadAs.same.apply ((iSlice L).view.read (Elt F) (m (iLoc d)))) Finset.univ)) hn hin) x
      = (oSlice L).view.read (Elt F) (looked m d) x := by
  show m (tLoc d) ((tVs).view.emb (gathers_S100000x128_S32x128.idx _ x))
    = m (tLoc d) (ix2 (Cert.Spec.rowOf (m (iLoc d) (ix1 (((oSlice L).view.emb x) 0)))) (((oSlice L).view.emb x) 1))
  congr 1
  funext a
  apply Fin.ext
  match a with
  | ⟨0, _⟩ =>
    -- the row: the list's entry `x 0` read as a number, against the clamped reading of index word `off + x 0`
    have e := Shape.rowMajor_val_one (d := ![32]) (S32.rowMajor.symm ((x gathers_S100000x128_S32x128.axis').cast hn.symm))
    rw [Equiv.apply_symm_apply] at e
    have key : (iSlice L).view.emb (S32.rowMajor.symm ((x gathers_S100000x128_S32x128.axis').cast hn.symm)) = ix1 (((oSlice L).view.emb x) 0) := by
      funext b
      match b with
      | ⟨0, _⟩ =>
        apply Fin.ext
        show k0_off1 L 0 + 1 * ((S32.rowMajor.symm ((x gathers_S100000x128_S32x128.axis').cast hn.symm)) 0).val = k0_off2 L 0 + 1 * (x 0).val
        rw [← e, k0_off1_eq, k0_off2_eq]
        rfl
    show 0 + 1 * (((sI).view.read (Elt F) ((sI).view.write (Elt F) fs (ReadAs.same.apply ((iSlice L).view.read (Elt F) (m (iLoc d)))) Finset.univ)
        (S32.rowMajor.symm ((x gathers_S100000x128_S32x128.axis').cast hn.symm))).toNat)
      = (Cert.Spec.rowOf (m (iLoc d) (ix1 (((oSlice L).view.emb x) 0)))).val
    rw [Cert.Spec.rowOf_val (hpre d _), View.read_write_univ, Nat.zero_add, Nat.one_mul]
    exact congrArg (fun z => BitVec.toNat (m (iLoc d) z)) key
  | ⟨1, _⟩ =>
    -- the column: `x`'s own
    show 0 + 1 * (x 1).val = k0_off2 L 1 + 1 * (x 1).val
    rw [k0_off2_eq]
    rfl

/-- The worker's rows after the write-back of the scratch block: on the worker's rows they are the looked-up array,
    whatever the rows and the block held before. -/
theorem slice_looked (hpre : ∀ d : Dev nD, Cert.Spec.InRange (m (iLoc d))) (fo : Buf (Elt F) (oLoc d))
    (fs : Buf (Elt F) ((sI).view.loc (V d (cV L) (jV L)))) (fr : Buf (Elt F) ((sR).view.loc (V d (cV L) (jV L))))
    (hn : S32.numel = S32x128.size gathers_S100000x128_S32x128.axis')
    (hin : ∀ x, ((sI).view.read (Elt F) ((sI).view.write (Elt F) fs (ReadAs.same.apply ((iSlice L).view.read (Elt F) (m (iLoc d)))) Finset.univ) x).toNat
      < S100000x128.size gathers_S100000x128_S32x128.axis) :
    ∀ y ∈ (oSlice L).view.set,
      (oSlice L).view.writes (Elt F) fo [⟨Rect.whole S32x128, ReadAs.same.apply ((sR).view.read (Elt F) ((sR).view.writes (Elt F) fr
        [⟨Rect.whole S32x128, SparseCore.gatherPayload gathers_S100000x128_S32x128 ((tVs).view.read (Elt F) (m (tLoc d)))
          (SparseCore.rows ((sI).view.read (Elt F) ((sI).view.write (Elt F) fs (ReadAs.same.apply ((iSlice L).view.read (Elt F) (m (iLoc d)))) Finset.univ)) hn hin)⟩]))⟩] y
        = looked m d y :=
  writes_whole_eq_on (oSlice L).view fo (looked m d) _ fun x => by
    have h1 := View.read_writes_cons_emb (sR).view fr (Rect.whole S32x128) (SparseCore.gatherPayload gathers_S100000x128_S32x128 ((tVs).view.read (Elt F) (m (tLoc d)))
      (SparseCore.rows ((sI).view.read (Elt F) ((sI).view.write (Elt F) fs (ReadAs.same.apply ((iSlice L).view.read (Elt F) (m (iLoc d)))) Finset.univ)) hn hin)) [] x
    rw [Rect.emb_whole_apply] at h1
    exact h1.trans (gathered_eq m d L hpre fs hn hin x)

/-- The task: from the share, the words and the rows, to the rows holding the looked-up table rows. -/
theorem tile_body (q : PosShare TreeShare) (hF : (K (F := F)).Facts) (hpre : ∀ d : Dev nD, Cert.Spec.InRange (m (iLoc d)))
    (O : CellTallies nD τ sig (HIx 1)) (W : Waits sig (HIx 1)) (hO : ∀ g, O g none = 0) :
    (iprop(levAts (K (F := F)).L (K (F := F)).lev
        ∗ ((tLoc d ↦{q} m (tLoc d)) ∗ (iLoc d ↦[iSet L]{fullShare} m (iLoc d)) ∗ ∃ f, oLoc d ↦[oSet L]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_kernel L tV (Memref.isWhole_whole _) iV (Memref.isWhole_whole _) oV (Memref.isWhole_whole _)
            sI (Memref.isWhole_whole _) sR (Memref.isWhole_whole _) cc0_scratch2 cc0_scoped0 cc0_scoped1)
          fun _ => iprop(((tLoc d ↦{q} m (tLoc d)) ∗ (iLoc d ↦[iSet L]{fullShare} m (iLoc d)) ∗ oLoc d ↦[oSet L]{fullShare} looked m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, ⟨Ht, Hi, ⟨%fo, Ho⟩⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_tV (F := F) d L q _).symm) $$ Ht
  ihave Hi' := (Entails.of_eq (pts_iSlice (F := F) d L _).symm) $$ Hi
  ihave Ho' := (Entails.of_eq (pts_oSlice (F := F) d L _).symm) $$ Ho
  ihave Hs' := (Entails.of_eq (pts_sI (F := F) d L _).symm) $$ Hs
  ihave Hr' := (Entails.of_eq (pts_sR (F := F) d L _).symm) $$ Hr
  have hin := idx_inb m d L hpre
  sl_exec
  sl_step
  isplitl [Ht' Hi' Ho']
  · isplitl [Ht']; · iexact Ht'
    isplitl [Hi']; · iexact Hi'
    ihave Ho2 := (Entails.of_eq (pointsTo_congr (slice_looked m d L hpre fo fs fr rfl (hin fs)))) $$ Ho'
    iexact Ho2
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap
  · iexact HO
  · -- the three waits were recorded at no call's index
    ipureintro
    intro p hp
    simp only [Finset.mem_insert] at hp
    rcases hp with rfl | rfl | rfl | hp
    · exact Or.inr rfl
    · exact Or.inr rfl
    · exact Or.inr rfl
    · exact Or.inl hp

end Tile

/-! ## The launch theorem's obligations -/

variable [FloatOps F]

/-- The kernels' table at a vector subcore: the gather kernel at the subcore's grid coordinates. -/
theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
/-- A task that recorded waits at no call's index recorded them at no index or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The launch deals this kernel nothing beside its operands. -/
theorem obl_pre {A G B C E : sProp 𝕄} : iprop(A ∗ emp ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

theorem P_go (d : Dev nD) (c : Fin ((K (F := F)).nCore 0)) (i : Fin ((K (F := F)).nSub 0)) :
    (P m).go 0 d c i = goRes m d (c.cast (nCore_eq 0)) (i.cast (nSub_eq 0)) := rfl
theorem P_td (d : Dev nD) (c : Fin ((K (F := F)).nCore 0)) (i : Fin ((K (F := F)).nSub 0)) :
    (P m).td 0 d c i = tdRes m d (c.cast (nCore_eq 0)) (i.cast (nSub_eq 0)) := rfl
theorem P_x (thr : Thread nD τ) : (P m).x 0 thr = iprop(emp) := rfl

theorem tileObl (hF : (K (F := F)).Facts) (hpre : ∀ d : Dev nD, Cert.Spec.InRange (m (iLoc d))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, P_x]
  unfold goRes tdRes
  exact obl_pre.trans ((tile_body m d (coordsV ⟨_, hc.1⟩ ⟨_, hc.2⟩) (tShare (c.cast (nCore_eq 0)) (i.cast (nSub_eq 0))) hF hpre O W hO).trans
    (wp_mono frame _ _ fun _ => obl_post))

/-- A SparseCore's operands are its sixteen workers' operands, and its results theirs: nothing to split. -/
theorem P_st (d : Dev nD) (c : Fin ((K (F := F)).nCore 0)) :
    (P m).st 0 d c = bigSep Finset.univ fun i : Fin ((K (F := F)).nSub 0) => (P m).go 0 d c i := rfl
theorem P_dn (d : Dev nD) (c : Fin ((K (F := F)).nCore 0)) :
    (P m).dn 0 d c = bigSep Finset.univ fun i : Fin ((K (F := F)).nSub 0) => (P m).td 0 d c i := rfl

theorem vecSplit : (K (F := F)).VecSplit' (P m) 0 := by
  intro d c
  rw [P_st, P_dn]
  iintro Hst
  imodintro
  isplitl [Hst]
  · iexact Hst
  · iintro Htd; iexact Htd

end Cert.Proof.Kernel

end
-- ==== Proof.KernelRun.lean ====
/-
  The whole program's run: every weakly fair execution of the TensorCore and the 34 SparseCore threads ends, and
  leaves the three argument arrays unchanged and the result array holding `Cert.Spec.G` of them.
-/
import proofs.«204669_g5978594476505_cont_9to1_m_202_17_alg».proof.Proof.KernelMain
import proofs.«204669_g5978594476505_cont_9to1_m_202_17_alg».proof.Proof.KernelValue
import proofs.«204669_g5978594476505_cont_9to1_m_202_17_alg».proof.Proof.KernelTile

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- What the run leaves, with the result array as the region's write-backs made it. -/
def QC : PUnit × MemSt nD τ sig (Elt F) → Prop := fun r => ∀ c : Dev nD,
  r.2.mem (rLoc c) = (dats m 0 c).arrAt 2 cfg1.N ∧ r.2.mem (fLoc c) = m (fLoc c)
    ∧ r.2.mem (iLoc c) = m (iLoc c) ∧ r.2.mem (tLoc c) = m (tLoc c)

theorem run_main [∀ e, Nonempty (Elt F e)] (hpre : ∀ d : Dev nD, Cert.Spec.InRange (m (iLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (Gd (F := F)) (FIN m) (u₀ (F := F)) (sep_elim_left.trans (hu₀ m)) (hmain m ρ) (fq m) (hfin m) (QC m) (fun _ h => h)

/-- The run with the result named: the result array ends at `Cert.Spec.G` of the arguments, the arguments unchanged. -/
theorem run [∀ e, Nonempty (Elt F e)] (hpre : ∀ d : Dev nD, Cert.Spec.InRange (m (iLoc d))) :
    θ_run (Cert.Kernel.defs (F := F)) (Cert.Kernel.threads (F := F)) ⟨m, fun _ => 0, ρ⟩ (fun r => ∀ c : Dev nD,
      r.2.mem ((c.tc : Thread nD τ).loc main_v2)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.Kernel.defs (F := F)) _ _).mono
    (fun r h c => ⟨(h c).1.trans (final m c), (h c).2.1, (h c).2.2.1, (h c).2.2.2⟩) (run_main m ρ hpre)

end Cert.Proof.Kernel

end
-- ==== Proof.KernelIdealSetup.lean ====
/-
  The kernel as the SparseCore launch theorem sees it, and what its threads hand one another.

  The program is three steps on the TensorCore: a SparseCore call in which each of the 32 vector subcores
  (SparseCore `c`, subcore `i`, worker number `2 i + c`) copies its 32 index words, gathers the 32 table rows
  they name, and writes them to rows `32 (2 i + c) …` of an intermediate array of shape [1024, 128]; a reshape of
  that array to [1024, 1, 128]; and a TensorCore region of 8 grid points that lays a block of 128 looked-up rows
  and the matching block of feature rows side by side along the middle axis.

  A worker needs: a read share of the whole table (every worker reads rows anywhere in it), its own 32 index
  words, and its own 32 rows of the intermediate array. It gives back the same, the rows now holding the
  looked-up table rows. The resource for a whole SparseCore is simply the collection of its 16 workers'
  resources, so splitting a SparseCore's operands among its workers is the identity.
-/
import proofs.«204669_g5978594476505_cont_9to1_m_202_17_alg».proof.Defs
import proofs.«204669_g5978594476505_cont_9to1_m_202_17_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204669_g5978594476505_cont_9to1_m_202_17_alg».proof.Proof.Gen.KernelIdeal
import proofs.«204669_g5978594476505_cont_9to1_m_202_17_alg».proof.Proof.Gen.KernelIdeal.Skeleton
import proofs.«204669_g5978594476505_cont_9to1_m_202_17_alg».proof.Proof.Gen.KernelIdeal.Launch
import proofs.«204669_g5978594476505_cont_9to1_m_202_17_alg».proof.Proof.Gen.KernelIdeal.Points

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore region's staging cells, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The staging cells' component. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The launch memory and the arrays -/

variable (m : (ℓ : Loc nD τ sig) → Buf (Elt F) ℓ) (ρ : Dev nD → PrngReg)

abbrev fLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0
abbrev eLoc (d : Dev nD) : Loc nD τ sig := (SparseCore.T d).loc main_v1
abbrev rLoc (d : Dev nD) : Loc nD τ sig := (SparseCore.T d).loc main_v2

/-- The arrays as a vector subcore's kernel names them. -/
abbrev tV : Memref sig .scVector .hbm S100000x128 .f32 := Memref.whole main_arg2_scv
abbrev iV : Memref sig .scVector .hbm S1024 .i32 := Memref.whole main_arg1_scv
abbrev oV : Memref sig .scVector .hbm S1024x128 .f32 := Memref.whole main_v0_scv

/-- The grid coordinates of SparseCore `c`, vector subcore `i`. -/
def coordsV (c : Fin (grid0.bound 0)) (s : Fin (grid0.bound 1)) : grid0.Coords :=
  fun | 0 => c | 1 => s | ⟨_ + 2, h⟩ => absurd h (Nat.not_lt.2 (Nat.le_add_left _ _))

/-- A worker's 32 index words, and its 32 rows of the intermediate array, as the kernel slices them. -/
abbrev iSlice (L : grid0.Coords) : Memref sig .scVector .hbm S32 .i32 :=
  (iV).slice (Rect.unit (s := S1024) (k0_off1 L) S32.size (k0_off1_inb L)) (fun _ => rfl)
abbrev oSlice (L : grid0.Coords) : Memref sig .scVector .hbm S32x128 .f32 :=
  (oV).slice (Rect.unit (s := S1024x128) (k0_off2 L) S32x128.size (k0_off2_inb L)) (fun _ => rfl)
abbrev iSet (L : grid0.Coords) : Finset S1024.Idx := (iSlice L).view.set
abbrev oSet (L : grid0.Coords) : Finset S1024x128.Idx := (oSlice L).view.set

/-- A worker's read share of the table: the whole share cut in two for the SparseCores, each half in sixteen. -/
def tShare (c : Fin 2) (i : Fin 16) : PosShare TreeShare :=
  pieceOf (pieceOf fullShare 2 (by decide) c) 16 (by decide) i

variable [FloatOps F]

/-- What the intermediate array holds once every worker is done: row `b` is the table row that index word `b` names. -/
def looked (d : Dev nD) : Buf (Elt F) (oLoc d) :=
  fun y => m (tLoc d) (ix2 (Cert.Spec.rowOf (m (iLoc d) (ix1 (y 0)))) (y 1))

/-- A worker's operands: its read share of the table, its index words, its rows of the intermediate array at
    whatever they hold. -/
def goRes (d : Dev nD) (c : Fin 2) (i : Fin 16) : sProp 𝕄 :=
  iprop((tLoc d ↦{tShare c i} m (tLoc d)) ∗ (iLoc d ↦[iSet (coordsV c i)]{fullShare} m (iLoc d))
    ∗ ∃ f, oLoc d ↦[oSet (coordsV c i)]{fullShare} f)

/-- A worker's results: the same, its rows now the looked-up table rows. -/
def tdRes (d : Dev nD) (c : Fin 2) (i : Fin 16) : sProp 𝕄 :=
  iprop((tLoc d ↦{tShare c i} m (tLoc d)) ∗ (iLoc d ↦[iSet (coordsV c i)]{fullShare} m (iLoc d))
    ∗ oLoc d ↦[oSet (coordsV c i)]{fullShare} looked m d)

/-- The one call runs on two SparseCores, sixteen vector subcores each. -/
theorem nCore_eq (q : Fin 1) : (K (F := F)).nCore q = 2 := match q with | 0 => rfl
theorem nSub_eq (q : Fin 1) : (K (F := F)).nSub q = 16 := match q with | 0 => rfl

/-- What the handshakes carry: a SparseCore's operands are its sixteen workers' operands, its results theirs. -/
def P : (K (F := F)).Pay (nD := nD) (Val := Elt F) (Name := ℕ) (U := UU) where
  st := fun q d c => bigSep Finset.univ fun i : Fin 16 => goRes m d (c.cast (nCore_eq q)) i
  dn := fun q d c => bigSep Finset.univ fun i : Fin 16 => tdRes m d (c.cast (nCore_eq q)) i
  go := fun q d c i => goRes m d (c.cast (nCore_eq q)) (i.cast (nSub_eq q))
  td := fun q d c i => tdRes m d (c.cast (nCore_eq q)) (i.cast (nSub_eq q))
  x := fun _ _ => iprop(emp)

instance P_storable : (P (F := F) m).IsStorable where
  st _ d c := by unfold P goRes; infer_instance
  dn _ d c := by unfold P tdRes; infer_instance
  go _ _ _ _ := by unfold P goRes; infer_instance
  td _ _ _ _ := by unfold P tdRes; infer_instance

end Cert.Proof.KernelIdeal

end
-- ==== Proof.KernelIdealRegion.lean ====
/-
  The TensorCore region: at each of the 8 grid points the body receives a block of 128 looked-up rows
  (shape [128, 1, 128]) and the matching block of 128 x 200 feature rows (shape [128, 200, 128]) and fills its
  output block of shape [128, 201, 128] with two stores that tile it: the looked-up rows at middle position 0,
  the feature rows at middle positions 1 to 200. So the output block is one function of the two input blocks,
  `blockOut`, and the region's proof data names it.
-/
import proofs.«204669_g5978594476505_cont_9to1_m_202_17_alg».proof.Proof.KernelIdealSetup
import Idealize.ShloMosaic.Lib.Pipeline.FrameBody
import Idealize.ShloMosaic.Lib.Pipeline.Value

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-! ## The body's two stores, and the block they leave -/

abbrev rIn0 : Rect S128x1x128 := Rect.unit (s := S128x1x128) ![0, 0, 0] S128x1x128.size inb_S128x1x128_S128x1x128_0_0_0
abbrev rIn1 : Rect S128x200x128 := Rect.unit (s := S128x200x128) ![0, 0, 0] S128x200x128.size inb_S128x200x128_S128x200x128_0_0_0
abbrev rOut0 : Rect S128x201x128 := Rect.unit (s := S128x201x128) ![0, 0, 0] S128x1x128.size inb_S128x201x128_S128x1x128_0_0_0
abbrev rOut1 : Rect S128x201x128 := Rect.unit (s := S128x201x128) ![0, 1, 0] S128x200x128.size inb_S128x201x128_S128x200x128_0_1_0

/-- The output block after the body, from the two input blocks: its two stores as pieces, the later one first. -/
def blockOut (x0 : Vec F S128x1x128 .f32) (x1 : Vec F S128x200x128 .f32) : Vec F S128x201x128 .f32 :=
  View.canon [⟨rOut1, View.ld x1 rIn1⟩, ⟨rOut0, k1_pay1 (View.ld x0 rIn0)⟩]

/-- An index of the output block is under the first store iff its middle coordinate is 0, -/
theorem mem_rOut0 (y : S128x201x128.Idx) : y ∈ (rOut0 : Rect S128x201x128).set ↔ (y 1).val = 0 := by
  have h0 : (y 0).val < 128 := (y 0).isLt
  have h1 : (y 1).val < 201 := (y 1).isLt
  have h2 : (y 2).val < 128 := (y 2).isLt
  rw [Rect.mem_set_unit]
  constructor
  · intro h
    have b : (0 : Nat) ≤ (y 1).val ∧ (y 1).val < 0 + 1 := h 1
    omega
  · intro h a
    match a with
    | ⟨0, _⟩ => show (0 : Nat) ≤ (y 0).val ∧ (y 0).val < 0 + 128; omega
    | ⟨1, _⟩ => show (0 : Nat) ≤ (y 1).val ∧ (y 1).val < 0 + 1; omega
    | ⟨2, _⟩ => show (0 : Nat) ≤ (y 2).val ∧ (y 2).val < 0 + 128; omega

/-- and under the second iff it is not. -/
theorem mem_rOut1 (y : S128x201x128.Idx) : y ∈ (rOut1 : Rect S128x201x128).set ↔ (y 1).val ≠ 0 := by
  have h0 : (y 0).val < 128 := (y 0).isLt
  have h1 : (y 1).val < 201 := (y 1).isLt
  have h2 : (y 2).val < 128 := (y 2).isLt
  rw [Rect.mem_set_unit]
  constructor
  · intro h
    have b : (1 : Nat) ≤ (y 1).val ∧ (y 1).val < 1 + 200 := h 1
    omega
  · intro h a
    match a with
    | ⟨0, _⟩ => show (0 : Nat) ≤ (y 0).val ∧ (y 0).val < 0 + 128; omega
    | ⟨1, _⟩ => show (1 : Nat) ≤ (y 1).val ∧ (y 1).val < 1 + 200; omega
    | ⟨2, _⟩ => show (0 : Nat) ≤ (y 2).val ∧ (y 2).val < 0 + 128; omega

/-- The two stores tile the output block, so every index is under one of them. -/
theorem blockOut_cover (p1 : Vec F S128x200x128 .f32) (p0 : Vec F S128x1x128 .f32) (y : S128x201x128.Idx) :
    ∃ pc ∈ ([⟨rOut1, p1⟩, ⟨rOut0, p0⟩] : List (View.Piece (Elt F) S128x201x128 .f32)), y ∈ pc.1.set := by
  by_cases h : (y 1).val = 0
  · exact ⟨⟨rOut0, p0⟩, List.mem_cons_of_mem _ List.mem_cons_self, (mem_rOut0 y).mpr h⟩
  · exact ⟨⟨rOut1, p1⟩, List.mem_cons_self, (mem_rOut1 y).mpr h⟩

/-! ## The body's triple -/

set_option maxHeartbeats 1000000 in
/-- The body on whole staging buffers, the inputs' at `x0`, `x1` and the output's at anything, leaves the inputs as
    they were and the output at `blockOut x0 x1`. -/
theorem sound_kernel (c : Dev nD) (E : Set ℕ) (i : grid1.Coords) (arg1 : Memref sig .tc .vmem S128x1x128 .f32) (harg1 : arg1.IsWhole)
    (arg2 : Memref sig .tc .vmem S128x200x128 .f32) (harg2 : arg2.IsWhole) (arg3 : Memref sig .tc .vmem S128x201x128 .f32) (harg3 : arg3.IsWhole)
    (x0 : Vec F S128x1x128 .f32) (x1 : Vec F S128x200x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ Kc ⟨⟩))
      ⊢ wp frame (wpE (defs₀ (F := F)) Variants.none c none) E (cc1__concat_body i arg1 harg1 arg2 harg2 arg3 harg3) Kc := by
  simp only [cc1__concat_body_eq_skeleton]; unfold cc1__concat_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _ _)

/-! ## The arrays as the region finds them -/

variable (m : (ℓ : Loc nD τ sig) → Buf (Elt F) ℓ)

abbrev o' : DevRef τ sig := Proc.devRef .tc (main_v0 : Ref sig .tc)
abbrev opReshape : HloOp τ sig (Elt F) := StableHlo.reshape main_v0 main_v1 rfl shapeCasts_S1024x128_S1024x1x128

/-- The launch contents; -/
def V0 (d : Dev nD) : Valuation τ sig (Elt F) := fun b => m (d, b)
/-- after the SparseCore call the intermediate array holds the looked-up rows; -/
def V1 (d : Dev nD) : Valuation τ sig (Elt F) := Function.update (V0 m d) o' (looked m d)
/-- after the reshape its [1024, 1, 128] copy holds them too. -/
def V2 (d : Dev nD) : Valuation τ sig (Elt F) := (opReshape (F := F)).result (V1 m d)

/-- The TensorCore's buffers when the region is entered. -/
abbrev VR (d : Dev nD) (b : Ref sig .tc) : Buf (Elt F) ((d : Thread nD τ).loc b) := V2 m d (Proc.devRef .tc b)

/-- The reshaped looked-up rows: entry `(b, 0, k)` is entry `(b, k)` of the intermediate array. -/
def eArr (d : Dev nD) : Buf (Elt F) (eLoc d) :=
  fun i => shapeCast S1024x1x128 (looked m d) shapeCasts_S1024x128_S1024x1x128 i

theorem VR_v1 (d : Dev nD) : VR m d main_v1 = eArr m d := by
  show (opReshape (F := F)).result (V1 m d) (Proc.devRef .tc main_v1) = _
  rw [StableHlo.reshape_result]
  unfold V1
  rw [Function.update_self]
  rfl
theorem VR_arg0 (d : Dev nD) : VR m d main_arg0 = m (fLoc d) := by
  show (opReshape (F := F)).result (V1 m d) (Proc.devRef .tc main_arg0) = _
  rw [StableHlo.reshape_result_ne (h := show (main_arg0 : Ref sig .tc) ≠ main_v1 by decide)]
  unfold V1
  rw [Function.update_of_ne (show (Proc.devRef .tc (main_arg0 : Ref sig .tc) : DevRef τ sig) ≠ o' by decide)]
  rfl
theorem VR_v2 (d : Dev nD) : VR m d main_v2 = m (rLoc d) := by
  show (opReshape (F := F)).result (V1 m d) (Proc.devRef .tc main_v2) = _
  rw [StableHlo.reshape_result_ne (h := show (main_v2 : Ref sig .tc) ≠ main_v1 by decide)]
  unfold V1
  rw [Function.update_of_ne (show (Proc.devRef .tc (main_v2 : Ref sig .tc) : DevRef τ sig) ≠ o' by decide)]
  rfl

/-! ## The windows' blocks and the proof data -/

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (VR m d (Pipeline.arrRef spec1 w))

/-- The wait pairs the TensorCore may have recorded before and during the region: those at or below the level the
    launch's handshake state asks at the end. -/
def recBound (d : Dev nD) : Set (SemLoc sig × HIx 1) := {p | (K (F := F)).lev (SparseCore.T d, p.1) p.2 ≤ 8 * 1}

/-- The region's proof data on device `d`: the arrays as the region finds them; after the body at point `t` each
    input's buffer at its block and the output's at `blockOut` of the two input blocks; the invariant is the scoped
    buffers no window stages and the generator register, untouched; nothing is owed. -/
def dats (_ : Fin 1) (d : Dev nD) : Dat τ (Elt F) (HIx 1) ℕ UU ℕ cfg1 d where
  A w := VR m d (Pipeline.arrRef spec1 w)
  after w t := match w with
    | ⟨0, _⟩ => iblk m d 0 t
    | ⟨1, _⟩ => iblk m d 1 t
    | ⟨2, _⟩ => blockOut (iblk m d 0 t) (iblk m d 1 t)
  Φ _ := iprop(Pipeline.scopedRest spec1 d ∗ ∃ r, prngReg d r)
  q _ := fullShare
  owed _ := 0
  recorded _ := recBound (F := F) d

theorem A_eq (d : Dev nD) (w : Fin cfg1.W) : (dats m 0 d).A w = VR m d (Pipeline.arrRef spec1 w) := by
  dsimp only [dats]
theorem after1_0 (d : Dev nD) (t : Fin cfg1.N) : (dats m 0 d).after 0 t = iblk m d 0 t := by dsimp only [dats]
theorem after1_1 (d : Dev nD) (t : Fin cfg1.N) : (dats m 0 d).after 1 t = iblk m d 1 t := by dsimp only [dats]
theorem after1_2 (d : Dev nD) (t : Fin cfg1.N) : (dats m 0 d).after 2 t = blockOut (iblk m d 0 t) (iblk m d 1 t) := by dsimp only [dats]

/-- Each input's current staging buffer holds its block at every point: both inputs are fetched at every point. -/
theorem before1_0 (d : Dev nD) (t : Fin cfg1.N) (x) : (dats m 0 d).before 0 t x = iblk m d 0 t :=
  ((dats m 0 d).before_in_eq_fetched 0 rfl (fun _ => rfl) (fun _ _ _ => rfl)
    (fun t => by rw [after1_0]; unfold Dat.blockOf iblk; rw [A_eq]; try rfl) t x).trans
    (by unfold Dat.fetched Dat.blockOf iblk; rw [A_eq]; try rfl)
theorem before1_1 (d : Dev nD) (t : Fin cfg1.N) (x) : (dats m 0 d).before 1 t x = iblk m d 1 t :=
  ((dats m 0 d).before_in_eq_fetched 1 rfl (fun _ => rfl) (fun _ _ _ => rfl)
    (fun t => by rw [after1_1]; unfold Dat.blockOf iblk; rw [A_eq]; try rfl) t x).trans
    (by unfold Dat.fetched Dat.blockOf iblk; rw [A_eq]; try rfl)

/-! ## The body obligation -/

/-- What the body is called with at point `t`, -/
def bodyPre (d : Dev nD) (t : Fin cfg1.N) : sProp 𝕄 :=
  iprop((dats m 0 d).Φ t.castSucc ∗ (dats m 0 d).owesAt none t.castSucc
    ∗ (∃ x, owns (d : Thread nD τ) (st1_0 t) fullShare ((dats m 0 d).before 0 t x))
    ∗ (∃ x, owns (d : Thread nD τ) (st1_1 t) fullShare ((dats m 0 d).before 1 t x))
    ∗ (∃ x, owns (d : Thread nD τ) (st1_2 t) fullShare ((dats m 0 d).before 2 t x)))

/-- and what it returns. -/
def bodyPost (d : Dev nD) (t : Fin cfg1.N) : sProp 𝕄 :=
  iprop((dats m 0 d).Φ t.succ ∗ (dats m 0 d).owesAt none t.succ
    ∗ owns (d : Thread nD τ) (st1_0 t) fullShare ((dats m 0 d).after 0 t)
    ∗ owns (d : Thread nD τ) (st1_1 t) fullShare ((dats m 0 d).after 1 t)
    ∗ owns (d : Thread nD τ) (st1_2 t) fullShare ((dats m 0 d).after 2 t))

/-- The body at any point: the inputs' buffers hold their blocks, so the body's triple applies; the invariant and
    what the TensorCore owes pass through unread. -/
theorem sound_body (d : Dev nD) (t : Fin cfg1.N) :
    bodyPre m d t ⊢ wp frame (wpE (defs₀ (F := F)) Variants.none d none) Set.univ (bodyAt1 t) (fun _ => bodyPost m d t) := by
  unfold bodyPre bodyPost bodyAt1
  simp only [before1_0, before1_1]
  rw [show (dats m 0 d).Φ t.succ = (dats m 0 d).Φ t.castSucc from rfl,
    show (dats m 0 d).owesAt none t.succ = (dats m 0 d).owesAt none t.castSucc from rfl,
    after1_0, after1_1, after1_2]
  iintro ⟨HΦ, Ho, ⟨%x0, H0⟩, ⟨%x1, H1⟩, ⟨%x2, H2⟩⟩
  iapply (sound_kernel d Set.univ (grid1.coords t) _ _ _ _ _ _ (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) m 0 d) (defs₀ (F := F)) Variants.none none Set.univ := fun t => by
  rw [bigSep_W1, bigSep_W1]
  exact sound_body m d t

/-! ## The region as a step of the TensorCore's program -/

/-- No prefetched table. -/
abbrev adm : (p : Fin 1) → (pcfgs (F := F) p).Adm := fun p => (cfgs p).toPCfg_adm

/-- What the TensorCore owes and has recorded, as the launch's handshake state keeps it after the one call. -/
def owesSt (d : Dev nD) : sProp 𝕄 :=
  iprop(∃ W, ⌜(K (F := F)).WBelow (SparseCore.T d) W (8 * 1)⌝ ∗ owes (SparseCore.T d) (0 : CellTallies nD τ sig (HIx 1)) W)

theorem owesAt_intro (d : Dev nD) (t : Fin (cfg1.N + 1)) : owesSt (F := F) d ⊢ ((dats m 0 d).owesAt none t : sProp 𝕄) := by
  unfold owesSt Pipeline.Dat.owesAt Pipeline.owesWithin Pipeline.Dat.bound
  rw [show (dats m 0 d).owed t = 0 from rfl, show (dats m 0 d).recorded t = recBound (F := F) d from rfl]
  iintro ⟨%W, %hW, HO⟩
  iexists W; isplitr
  · ipureintro; exact fun p hp => Or.inl (hW p hp)
  iexact HO

theorem owesAt_elim (d : Dev nD) (t : Fin (cfg1.N + 1)) : ((dats m 0 d).owesAt none t : sProp 𝕄) ⊢ owesSt (F := F) d := by
  unfold owesSt Pipeline.Dat.owesAt Pipeline.owesWithin Pipeline.Dat.bound
  rw [show (dats m 0 d).owed t = 0 from rfl, show (dats m 0 d).recorded t = recBound (F := F) d from rfl]
  iintro ⟨%W, %hW, HO⟩
  iexists W; isplitr
  · ipureintro
    intro p hp
    rcases hW hp with h | ⟨w, s, rfl⟩
    · exact h
    · show (K (F := F)).lev _ none ≤ 8 * 1
      rw [SparseCore.Cfg.lev_none]; exact Nat.zero_le _
  iexact HO

/-- The three windows' arrays, whole, at given contents. -/
def arrs (d : Dev nD) (fr : Buf (Elt F) (rLoc d)) : sProp 𝕄 :=
  iprop((eLoc d ↦{fullShare} eArr m d) ∗ (fLoc d ↦{fullShare} m (fLoc d)) ∗ (rLoc d ↦{fullShare} fr))

theorem share_full (d : Dev nD) (w : Fin cfg1.W) : (dats m 0 d).share w = fullShare :=
  (dats m 0 d).share_full (fun _ => rfl) w

theorem arrays_eq (d : Dev nD) (Fa : (w : Fin cfg1.W) → Buf (Elt F) ((cfg1.win w).arr.view.loc (d : Thread nD τ))) :
    ((dats m 0 d).arrays Fa : sProp 𝕄)
      = iprop((eLoc d ↦{fullShare} Fa 0) ∗ (fLoc d ↦{fullShare} Fa 1) ∗ (rLoc d ↦{fullShare} Fa 2)) := by
  unfold Pipeline.Dat.arrays
  rw [bigSep_W1, share_full, share_full, share_full]
  simp only [Memref.view_whole, View.set_whole]

theorem prefHeld_emp (d : Dev nD) (q) (pf) :
    (Pipeline.prefHeld (Ix := HIx 1) (Name := ℕ) (U := UU) (Lvl := ℕ) (Val := Elt F) (pcfgs (F := F) 0).pre d q pf : sProp 𝕄) = BI.emp := by
  unfold Pipeline.prefHeld
  show bigSep (Finset.univ : Finset (Fin 0)) _ = _
  rw [Finset.univ_eq_empty, BI.bigSep_empty]

/-- The region as a segment: entered holding the three arrays (the looked-up rows reshaped, the feature array, the
    result array at anything), the generator register and the TensorCore's debts; left holding the same with the
    result array at what the pipeline's write-backs made of it. -/
def regSeg : Pipeline.RegionSeg (pcfgs (F := F)) adm (dats m) none defs₀ 𝒱₀ (K (F := F)).L (K (F := F)).lev 0 where
  win := winFacts1.to₀
  block_pos := block_pos1
  stage_whole := stage_whole1
  K := PEmpty
  osem k := k.elim
  ho := Pipeline.OwnSemFacts.none _
  hbody d := (body_obligation m d).loose
  hwaits := Pipeline.hwaits_of_owed_zero _ _ _ _ _ _ 0 fun _ _ => rfl
  pre d := iprop(arrs m d (m (rLoc d)) ∗ (∃ r, prngReg d r) ∗ owesSt (F := F) d)
  post d := iprop(arrs m d ((dats m 0 d).arrAt 2 cfg1.N) ∗ (∃ r, prngReg d r) ∗ owesSt (F := F) d)
  X d := iprop(∃ r, prngReg d r)
  Y d := iprop(∃ r, prngReg d r)
  Z _ := iprop(emp)
  hentry d := by
    rw [Pipeline.ownSems0_none, arrays_eq, prefHeld_emp]
    unfold arrs
    iintro ⟨⟨⟨He, Hf, Hr⟩, Hp, HO⟩, -, -⟩
    imodintro
    isplitl [He Hf Hr]
    · rw [show (dats m 0 d).arrAt 0 0 = eArr m d from (A_eq m d 0).trans (VR_v1 m d),
        show (dats m 0 d).arrAt 1 0 = m (fLoc d) from (A_eq m d 1).trans (VR_arg0 m d),
        show (dats m 0 d).arrAt 2 0 = m (rLoc d) from (A_eq m d 2).trans (VR_v2 m d)]
      isplitl [He]; · iexact He
      isplitl [Hf] <;> iassumption
    isplitr; · iempintro
    isplitl [HO]; · iapply (owesAt_intro m d 0); iexact HO
    isplitl [Hp]; · iexact Hp
    iempintro
  hin d := by
    rw [show (dats m 0 d).Φ 0 = iprop(Pipeline.scopedRest spec1 d ∗ ∃ r, prngReg d r) from rfl]
    iintro ⟨HX, -, HR⟩
    isplitl [HR]; · iexact HR
    iexact HX
  hout d := by
    rw [show (dats m 0 d).Φ (Fin.last _) = iprop(Pipeline.scopedRest spec1 d ∗ ∃ r, prngReg d r) from rfl, Pipeline.ownSems0_none]
    iintro ⟨HR, HX⟩
    isplitl [HX]; · iexact HX
    isplitr; · iempintro
    iexact HR
  hexit d := by
    rw [arrays_eq]
    unfold arrs
    iintro ⟨⟨He, Hf, Hr⟩, HO, HY, -⟩
    imodintro
    isplitl [He Hf Hr]
    · rw [show (dats m 0 d).arrAt 0 cfg1.N = eArr m d from ((dats m 0 d).arrAt_in 0 rfl _).trans ((A_eq m d 0).trans (VR_v1 m d)),
        show (dats m 0 d).arrAt 1 cfg1.N = m (fLoc d) from ((dats m 0 d).arrAt_in 1 rfl _).trans ((A_eq m d 1).trans (VR_arg0 m d))]
      isplitl [He]; · iexact He
      isplitl [Hf] <;> iassumption
    isplitl [HY]; · iexact HY
    iapply (owesAt_elim m d _); iexact HO

theorem regSeg_pre (d : Dev nD) :
    (regSeg m).pre d = iprop(arrs m d (m (rLoc d)) ∗ (∃ r, prngReg d r) ∗ owesSt (F := F) d) := rfl
theorem regSeg_post (d : Dev nD) :
    (regSeg m).post d = iprop(arrs m d ((dats m 0 d).arrAt 2 cfg1.N) ∗ (∃ r, prngReg d r) ∗ owesSt (F := F) d) := rfl

variable [∀ e, Nonempty (Elt F e)]

/-- The region's step on device `d`'s TensorCore. -/
theorem wp_region (d : Dev nD) {α : Type}
    (k : PUnit → Prog (TpuEff nD τ sig (Elt F) (ΛP (F := F)) .tc) α) (Q : α → sProp 𝕄) :
    iprop((iprop(boundary (d : Thread nD τ) ∗ (regSeg m).post d) -∗ wp frame (wpE (D (F := F)) 𝒱 (d : Thread nD τ) none) Set.univ (k ⟨⟩) Q)
        ∗ boundary (d : Thread nD τ) ∗ (regSeg m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) none) Set.univ (.op (.customCall (Pipeline.entry 0) ()) k) Q :=
  Pipeline.RegionSeg.wp (pcfgs (F := F)) adm (dats m) none cellOf_inj EP defs₀ 𝒱₀ (K (F := F)).L (K (F := F)).lev (regSeg m) d none
    (fun _ h => nomatch h) k Q

end Cert.Proof.KernelIdeal

end
-- ==== Proof.KernelIdealSplit.lean ====
/-
  Dealing the arrays to the 32 workers and collecting them again.

  The table is only read, so its whole share is cut into 32 read shares, one per worker. The index vector and
  the intermediate array are cut by position: worker (c, i) holds entries 64 i + 32 c … 64 i + 32 c + 31 of the
  index vector and the same rows of the intermediate array; these 32 ranges are pairwise disjoint and cover
  0 … 1023. After the call every worker's rows hold the looked-up table rows, so the intermediate array as a whole
  holds them.
-/
import proofs.«204669_g5978594476505_cont_9to1_m_202_17_alg».proof.Proof.KernelIdealSetup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

/-! ## The workers' ranges -/

/-- Worker (c, i)'s first entry. -/
def base (c : Fin 2) (i : Fin 16) : Nat := 64 * i.val + 32 * c.val

theorem k0_off1_coords (c : Fin 2) (i : Fin 16) : k0_off1 (coordsV c i) = ![base c i] := k0_off1_eq _
theorem k0_off2_coords (c : Fin 2) (i : Fin 16) : k0_off2 (coordsV c i) = ![base c i, 0] := k0_off2_eq _

/-- Distinct workers' ranges of 32 entries do not meet. -/
theorem base_separated {c c' : Fin 2} {i i' : Fin 16} (h : (c, i) ≠ (c', i')) :
    base c i + 32 ≤ base c' i' ∨ base c' i' + 32 ≤ base c i := by
  have hne : ¬ (c.val = c'.val ∧ i.val = i'.val) := fun ⟨h1, h2⟩ => h (Prod.ext (Fin.ext h1) (Fin.ext h2))
  have := c.isLt; have := c'.isLt; have := i.isLt; have := i'.isLt
  unfold base
  omega

/-- A worker's index words are the entries of its range. -/
theorem iSet_eq (c : Fin 2) (i : Fin 16) :
    iSet (coordsV c i) = (Rect.unit (s := S1024) (k0_off1 (coordsV c i)) S32.size (k0_off1_inb (coordsV c i))).set :=
  View.set_slice_whole _ _

/-- A worker's rows of the intermediate array are the rows of its range. -/
theorem oSet_eq (c : Fin 2) (i : Fin 16) :
    oSet (coordsV c i) = (Rect.unit (s := S1024x128) (k0_off2 (coordsV c i)) S32x128.size (k0_off2_inb (coordsV c i))).set :=
  View.set_slice_whole _ _

theorem mem_iSet (c : Fin 2) (i : Fin 16) (j : S1024.Idx) :
    j ∈ iSet (coordsV c i) ↔ base c i ≤ (j 0).val ∧ (j 0).val < base c i + 32 := by
  rw [iSet_eq, Rect.mem_set_unit, k0_off1_coords]
  exact Fin.forall_fin_one

theorem mem_oSet (c : Fin 2) (i : Fin 16) (j : S1024x128.Idx) :
    j ∈ oSet (coordsV c i) ↔ base c i ≤ (j 0).val ∧ (j 0).val < base c i + 32 := by
  rw [oSet_eq, Rect.mem_set_unit, k0_off2_coords]
  refine Fin.forall_fin_two.trans ⟨fun h => h.1, fun h => ⟨h, Nat.zero_le _, ?_⟩⟩
  have h1 : (j 1).val < 128 := (j 1).isLt
  show (j 1).val < 0 + 128
  omega

theorem iSets_disjoint : ∀ p ∈ (Finset.univ : Finset (Fin 2 × Fin 16)), ∀ p' ∈ (Finset.univ : Finset (Fin 2 × Fin 16)),
    p ≠ p' → Disjoint (iSet (coordsV p.1 p.2)) (iSet (coordsV p'.1 p'.2)) := fun p _ p' _ h => by
  rw [Finset.disjoint_left]
  intro j hj hj'
  rw [mem_iSet] at hj hj'
  have := base_separated (c := p.1) (i := p.2) (c' := p'.1) (i' := p'.2) h
  omega

theorem oSets_disjoint : ∀ p ∈ (Finset.univ : Finset (Fin 2 × Fin 16)), ∀ p' ∈ (Finset.univ : Finset (Fin 2 × Fin 16)),
    p ≠ p' → Disjoint (oSet (coordsV p.1 p.2)) (oSet (coordsV p'.1 p'.2)) := fun p _ p' _ h => by
  rw [Finset.disjoint_left]
  intro j hj hj'
  rw [mem_oSet] at hj hj'
  have := base_separated (c := p.1) (i := p.2) (c' := p'.1) (i' := p'.2) h
  omega

/-- Entry `n` below 1024 lies in the range of worker (n % 64 / 32, n / 64). -/
theorem exists_worker (n : Nat) (hn : n < 1024) : ∃ p : Fin 2 × Fin 16, base p.1 p.2 ≤ n ∧ n < base p.1 p.2 + 32 :=
  ⟨(⟨n % 64 / 32, by omega⟩, ⟨n / 64, by omega⟩), by unfold base; dsimp only; omega, by unfold base; dsimp only; omega⟩

theorem iSets_cover : (Finset.univ : Finset (Fin 2 × Fin 16)).biUnion (fun p => iSet (coordsV p.1 p.2)) = Finset.univ := by
  ext j
  simp only [Finset.mem_biUnion, Finset.mem_univ, true_and, iff_true]
  obtain ⟨p, hp⟩ := exists_worker (j 0).val (j 0).isLt
  exact ⟨p, (mem_iSet p.1 p.2 j).2 hp⟩

theorem oSets_cover : (Finset.univ : Finset (Fin 2 × Fin 16)).biUnion (fun p => oSet (coordsV p.1 p.2)) = Finset.univ := by
  ext j
  simp only [Finset.mem_biUnion, Finset.mem_univ, true_and, iff_true]
  obtain ⟨p, hp⟩ := exists_worker (j 0).val (j 0).isLt
  exact ⟨p, (mem_oSet p.1 p.2 j).2 hp⟩

/-! ## The arrays, whole, as the workers' parts -/

/-- The index vector, whole, is the 32 workers' ranges of it. -/
theorem iPts_split (d : Dev nD) (f : Buf (Elt F) (iLoc d)) :
    (iLoc d ↦{fullShare} f : sProp 𝕄)
      = bigSep Finset.univ fun c : Fin 2 => bigSep Finset.univ fun i : Fin 16 => iLoc d ↦[iSet (coordsV c i)]{fullShare} f := by
  rw [← SparseCore.bigSep_product Finset.univ Finset.univ (fun p : Fin 2 × Fin 16 => (iLoc d ↦[iSet (coordsV p.1 p.2)]{fullShare} f : sProp 𝕄)),
    Finset.univ_product_univ, ← pointsTo_biUnion Finset.univ (ℓ := iLoc d) (fun p : Fin 2 × Fin 16 => iSet (coordsV p.1 p.2)) iSets_disjoint,
    iSets_cover]

/-- The intermediate array, whole, is the 32 workers' rows of it. -/
theorem oPts_split (d : Dev nD) (f : Buf (Elt F) (oLoc d)) :
    (oLoc d ↦{fullShare} f : sProp 𝕄)
      = bigSep Finset.univ fun c : Fin 2 => bigSep Finset.univ fun i : Fin 16 => oLoc d ↦[oSet (coordsV c i)]{fullShare} f := by
  rw [← SparseCore.bigSep_product Finset.univ Finset.univ (fun p : Fin 2 × Fin 16 => (oLoc d ↦[oSet (coordsV p.1 p.2)]{fullShare} f : sProp 𝕄)),
    Finset.univ_product_univ, ← pointsTo_biUnion Finset.univ (ℓ := oLoc d) (fun p : Fin 2 × Fin 16 => oSet (coordsV p.1 p.2)) oSets_disjoint,
    oSets_cover]

/-- The table at the whole share is the table at the 32 workers' read shares. -/
theorem tPts_split (d : Dev nD) (f : Buf (Elt F) (tLoc d)) :
    (tLoc d ↦{fullShare} f : sProp 𝕄)
      = bigSep Finset.univ fun c : Fin 2 => bigSep Finset.univ fun i : Fin 16 => tLoc d ↦{tShare c i} f := by
  rw [pointsTo_piecesOf Finset.univ f (o := 2) (by decide) fullShare]
  exact bigSep_congr fun c _ => pointsTo_piecesOf Finset.univ f (o := 16) (by decide) _

variable (m : (ℓ : Loc nD τ sig) → Buf (Elt F) ℓ)
variable [FloatOps F]

/-- The three arrays, whole, are the 32 workers' operands. -/
theorem deal (d : Dev nD) :
    iprop((tLoc d ↦{fullShare} m (tLoc d)) ∗ (iLoc d ↦{fullShare} m (iLoc d)) ∗ (∃ f, oLoc d ↦{fullShare} f))
      ⊢ (bigSep Finset.univ fun c : Fin 2 => bigSep Finset.univ fun i : Fin 16 => goRes m d c i : sProp 𝕄) := by
  have ho : ∀ f : Buf (Elt F) (oLoc d), (oLoc d ↦{fullShare} f : sProp 𝕄)
      ⊢ bigSep Finset.univ fun c : Fin 2 => bigSep Finset.univ fun i : Fin 16 => iprop(∃ f, oLoc d ↦[oSet (coordsV c i)]{fullShare} f) := fun f => by
    have hstep : ∀ (c : Fin 2) (i : Fin 16), (oLoc d ↦[oSet (coordsV c i)]{fullShare} f : sProp 𝕄)
        ⊢ iprop(∃ f, oLoc d ↦[oSet (coordsV c i)]{fullShare} f) := fun c i => by
      iintro H; iexists f; iexact H
    rw [oPts_split]
    exact bigSep_mono fun c _ => bigSep_mono fun i _ => hstep c i
  unfold goRes
  simp only [bigSep_sep']
  rw [← tPts_split, ← iPts_split]
  iintro ⟨Ht, Hi, %f, Ho⟩
  isplitl [Ht]; · iexact Ht
  isplitl [Hi]; · iexact Hi
  iapply (ho f); iexact Ho

/-- The 32 workers' results are the three arrays, whole, the intermediate one at the looked-up rows. -/
theorem collect (d : Dev nD) :
    (bigSep Finset.univ fun c : Fin 2 => bigSep Finset.univ fun i : Fin 16 => tdRes m d c i : sProp 𝕄)
      ⊢ iprop((tLoc d ↦{fullShare} m (tLoc d)) ∗ (iLoc d ↦{fullShare} m (iLoc d)) ∗ (oLoc d ↦{fullShare} looked m d)) := by
  unfold tdRes
  simp only [bigSep_sep']
  rw [← tPts_split, ← iPts_split, ← oPts_split]

end Cert.Proof.KernelIdeal

end
-- ==== Proof.KernelIdealMain.lean ====
/-
  The TensorCore's program, the launch element and the reading of the final memory.

  The TensorCore deals the three arrays the SparseCore call works on to the 32 workers, makes the call, collects
  them (the intermediate array now holds the looked-up rows), runs the reshape, and enters the region holding the
  reshaped rows, the feature array and the result array. At the end it holds the three argument arrays at their
  launch contents and the result array at what the region's write-backs made of it.
-/
import proofs.«204669_g5978594476505_cont_9to1_m_202_17_alg».proof.Proof.KernelIdealRegion
import proofs.«204669_g5978594476505_cont_9to1_m_202_17_alg».proof.Proof.KernelIdealSplit

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

abbrev e' : DevRef τ sig := Proc.devRef .tc (main_v1 : Ref sig .tc)

theorem unscopedBufs_eq (d : Dev nD) (W : (b : Ref sig .tc) → Buf (Elt F) ((d.tc : Thread nD τ).loc b)) :
    (unscopedBufs d W : sProp 𝕄) = iprop((fLoc d ↦{fullShare} W main_arg0) ∗ (iLoc d ↦{fullShare} W main_arg1) ∗ (tLoc d ↦{fullShare} W main_arg2)
      ∗ (oLoc d ↦{fullShare} W main_v0) ∗ (eLoc d ↦{fullShare} W main_v1) ∗ (rLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The two buffers the reshape works on. -/
abbrev S2 : Finset (DevRef τ sig) := {o', e'}

theorem held_S2 (d : Dev nD) (W : Valuation τ sig (Elt F)) :
    (held (T d) S2 W : sProp 𝕄) = iprop((oLoc d ↦{fullShare} W o') ∗ (eLoc d ↦{fullShare} W e')) := by
  unfold held S2
  rw [SparseCore.bigSep_insert' (by decide), bigSep_singleton]

theorem hReshape : (opReshape (F := F)).bufs ⊆ S2 := show ({o', e'} : Finset (DevRef τ sig)) ⊆ S2 by decide

theorem V1_o (d : Dev nD) : V1 m d o' = looked m d := Function.update_self _ _ _
theorem V1_e (d : Dev nD) : V1 m d e' = m (eLoc d) := Function.update_of_ne (show e' ≠ o' by decide) _ _
theorem V2_o (d : Dev nD) : (opReshape (F := F)).result (V1 m d) o' = looked m d :=
  ((opReshape (F := F)).result_of_not_mem (V1 m d) (b := o') (show o' ∉ ({e'} : Finset (DevRef τ sig)) by decide)).trans (V1_o m d)
theorem V2_e (d : Dev nD) : (opReshape (F := F)).result (V1 m d) e' = eArr m d := VR_v1 m d

theorem held_before (d : Dev nD) :
    (held (T d) S2 (V1 m d) : sProp 𝕄) = iprop((oLoc d ↦{fullShare} looked m d) ∗ (eLoc d ↦{fullShare} m (eLoc d))) := by
  rw [held_S2, V1_o, V1_e]
theorem held_after (d : Dev nD) :
    (held (T d) S2 ((opReshape (F := F)).result (V1 m d)) : sProp 𝕄) = iprop((oLoc d ↦{fullShare} looked m d) ∗ (eLoc d ↦{fullShare} eArr m d)) := by
  rw [held_S2, V2_o, V2_e]

/-! ## What the call takes and hands back -/

theorem st0_eq (d : Dev nD) : (bigSep Finset.univ fun c : Fin ((K (F := F)).nCore 0) => (P m).st 0 d c)
    = bigSep Finset.univ fun c : Fin 2 => bigSep Finset.univ fun i : Fin 16 => goRes m d c i := rfl
theorem dn0_eq (d : Dev nD) : (bigSep Finset.univ fun c : Fin ((K (F := F)).nCore 0) => (P m).dn 0 d c)
    = bigSep Finset.univ fun c : Fin 2 => bigSep Finset.univ fun i : Fin 16 => tdRes m d c i := rfl

/-- After the one call the TensorCore owes nothing: its handshake state is its debts (none) beside the rest. -/
theorem tcSt_split (d : Dev nD) : ∃ R : sProp 𝕄, ((K (F := F)).tcSt EH d 1 : sProp 𝕄) = iprop(owesSt (F := F) d ∗ R) :=
  ⟨_, by unfold SparseCore.Cfg.tcSt owesSt; rw [(K (F := F)).Otc_end d (le_refl 1)]⟩

/-! ## @main on the TensorCore -/

/-- The region's staging cells' ghost state, dealt at the launch. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claim: the three arguments at their launch contents, the result at what the region made. -/
def FIN (d : Dev nD) : sProp 𝕄 :=
  iprop((fLoc d ↦{fullShare} m (fLoc d)) ∗ (iLoc d ↦{fullShare} m (iLoc d)) ∗ (tLoc d ↦{fullShare} m (tLoc d))
    ∗ (rLoc d ↦{fullShare} (dats m 0 d).arrAt 2 cfg1.N))

/-- The region's call in the whole program's label signature is the lift of the call in the inner one. -/
theorem region_prog_eq :
    (Prog.lift (TpuEff.customCall (SparseCore.inner (Pipeline.entry (0 : Fin 1))) ()) :
        Prog (TpuEff nD τ sig (Elt F) (SparseCore.Sig (ΛP (F := F)) 1) .tc) PUnit)
      = SparseCore.liftProg (Q := 1)
          (Prog.op (TpuEff.customCall (Λ := ΛP (F := F)) (Pipeline.entry (0 : Fin 1)) ()) fun _ => Prog.ret PUnit.unit) := by
  chain_rfl

/-- The staging cells' component of the launch element, as the pipeline library names it. -/
theorem own_EP (x : UP) :
    (BI.own (((Emb.inl : Emb UP (UP × Counters)).trans (embR (A := UH) (B := UP × Counters))) x) : sProp 𝕄) ⊢ BI.own ((EP (F := F)) x) := by
  unfold EP; exact .rfl

variable [∀ e, Nonempty (Elt F e)]

theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d
  unfold SparseCore.Cfg.tcRes Gd
  rw [unscopedBufs_eq, hR]
  simp only [main, wp_bind, wp_pure]
  iintro ⟨#Hctx, Hst, ⟨Hb, ⟨Hf, Hi, Ht, Ho, He, Hr⟩, -, Hprng⟩, Hg, Htk⟩
  ihave Hgo := (deal m d) $$ [Ht Hi Ho]
  · isplitl [Ht]; · iexact Ht
    isplitl [Hi]; · iexact Hi
    iexists _; iexact Ho
  iapply ((K (F := F)).wp_run (D (F := F)) 𝒱 (EH := EH) (P := P m) κ d 0) $$ [Hst Hgo Hb Hf He Hr Hprng Hg Htk]
  isplitr; · iexact Hctx
  isplitl [Hst]; · iexact Hst
  isplitl [Hgo]
  · rw [st0_eq]; iexact Hgo
  iintro ⟨Hst, Hdn⟩
  ihave Hdn' := (Entails.of_eq (dn0_eq m d)) $$ Hdn
  ihave Hcol := (collect m d) $$ Hdn'
  icases Hcol with ⟨Ht, Hi, Ho⟩
  ihave Hst' := (Entails.of_eq (show ((K (F := F)).tcSt EH d ((0 : Fin 1).val + 1) : sProp 𝕄) = iprop(owesSt (F := F) d ∗ R) from hR)) $$ Hst
  icases Hst' with ⟨HO, HR⟩
  -- the reshape, over the intermediate array and its [1024, 1, 128] copy
  iapply (wp_hlo_within 𝒱 (SparseCore.T d) none Set.univ (op := opReshape) (S := S2) hReshape (V := V1 m d)) $$ [Hb Ho He]
  · isplitl [Hb]; · iexact Hb
    iapply (Entails.of_eq (held_before m d).symm)
    isplitl [Ho]; · iexact Ho
    iexact He
  iintro ⟨Hb, Hheld⟩
  ihave Hh := (Entails.of_eq (held_after (F := F) m d)) $$ Hheld
  icases Hh with ⟨Ho, He⟩
  rw [wp_ret]; imodintro
  -- the region, entered through the lifted program
  rw [region_prog_eq]
  iapply ((K (F := F)).wp_liftProg (D (F := F)) 𝒱 (SparseCore.T d) Set.univ none _ _)
  ihave Hlev := (SparseCore.Cfg.ctx_levAts κ) $$ Hctx
  iapply (wp_region m d (fun _ => .ret ⟨⟩) _) $$ [Hf Hr Hprng Hg Htk Ht Hi HO HR Hb Ho He Hlev]
  isplitl [Ht Hi HR Ho]
  · iintro ⟨Hb, Hpost⟩
    ihave Hp := (Entails.of_eq (regSeg_post (F := F) m d)) $$ Hpost
    unfold arrs
    icases Hp with ⟨⟨He, Hf, Hr⟩, Hprng, HO⟩
    rw [wp_ret]; imodintro; imodintro
    unfold FIN
    isplitl [HO HR]
    · isplitl [HO]; · iexact HO
      iexact HR
    isplitl [Hf]; · iexact Hf
    isplitl [Hi]; · iexact Hi
    isplitl [Ht]; · iexact Ht
    iexact Hr
  isplitl [Hb]; · iexact Hb
  isplitl [Hf Hr Hprng HO He]
  · iapply (Entails.of_eq (regSeg_pre (F := F) m d).symm)
    unfold arrs
    isplitl [He Hf Hr]
    · isplitl [He]; · iexact He
      isplitl [Hf]; · iexact Hf
      iexact Hr
    isplitl [Hprng]; · iexists _; iexact Hprng
    iexact HO
  isplitl [Hlev]; · iexact Hlev
  isplitl [Hg]; · iexact Hg
  iexact Htk

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

/-- The staging cells' ghost state, one pipeline per device, regrouped per device. -/
theorem ghost_regroup :
    iprop((bigSep Finset.univ fun d : Dev nD => bigSep Finset.univ fun p : Fin 1 => Pipeline.cellsGhost (Pipeline.pin (pcfgs (F := F)) adm) EP p d)
        ∗ (bigSep Finset.univ fun d : Dev nD => bigSep Finset.univ fun p : Fin 1 => (Pipeline.toksInit (Pipeline.pin (pcfgs (F := F)) adm) EP p d : sProp 𝕄)))
      ⊢ bigSep Finset.univ fun d : Dev nD => Gd (F := F) d := by
  unfold Gd
  refine (BIClass.sep_mono (Entails.of_eq (bigSep_congr fun d _ => BI.bigSep_univ_of_subsingleton (0 : Fin 1)))
    (Entails.of_eq (bigSep_congr fun d _ => BI.bigSep_univ_of_subsingleton (0 : Fin 1)))).trans ?_
  exact Entails.of_eq (bigSep_sep Finset.univ
    (fun d : Dev nD => Pipeline.cellsGhost (Pipeline.pin (pcfgs (F := F)) adm) EP 0 d)
    (fun d : Dev nD => (Pipeline.toksInit (Pipeline.pin (pcfgs (F := F)) adm) EP 0 d : sProp 𝕄))).symm

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HRest⟩
  ihave H2 := (own_pair_emb (embR (A := UH) (B := UP × Counters)) _ _) $$ HRest
  icases H2 with ⟨HP0, -⟩
  ihave HP := (own_EP (F := F) _) $$ HP0
  imod (Pipeline.fund_ghost (Pipeline.pin (pcfgs (F := F)) adm) (EP (F := F)) cellOf_inj) $$ HP with ⟨Hcg, Htk⟩
  imodintro
  isplitl [HH]; · iexact HH
  isplitl [Hcg Htk]
  · iapply (ghost_regroup (F := F))
    isplitl [Hcg]; · iexact Hcg
    iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

def fq (d : Dev nD) (s' : Phys nD τ sig (Elt F)) : Prop :=
  s'.mem.mem (rLoc d) = (dats m 0 d).arrAt 2 cfg1.N ∧ s'.mem.mem (fLoc d) = m (fLoc d)
    ∧ s'.mem.mem (iLoc d) = m (iLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨Hf, Hi, Ht, Hr⟩, HSI⟩
  icombine HSI Hf gives %hf
  icombine HSI Hi gives %hi
  icombine HSI Ht gives %ht
  icombine HSI Hr gives %hr
  ipureintro
  exact ⟨funext fun j => hr j (Finset.mem_univ j), funext fun j => hf j (Finset.mem_univ j),
    funext fun j => hi j (Finset.mem_univ j), funext fun j => ht j (Finset.mem_univ j)⟩

end Cert.Proof.KernelIdeal

end
-- ==== Proof.KernelIdealValue.lean ====
/-
  The result array as one function of the argument arrays.

  At a grid point the body leaves in its output block the looked-up rows at middle position 0 and the feature
  rows at middle positions 1 to 200; the block of the looked-up rows is read off the reshaped intermediate array,
  whose entry (b, 0, k) is entry (b, k) of the intermediate array, that is, entry k of the table row that index
  word b names. The 8 output blocks are consecutive groups of 128 batch rows, so they cover the result array, and
  the array ends holding `Cert.Spec.G` of the three arguments.
-/
import proofs.«204669_g5978594476505_cont_9to1_m_202_17_alg».proof.Proof.KernelIdealRegion

set_option maxRecDepth 16384

noncomputable section

namespace Cert.Proof.KernelIdeal

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.ValueIdx
open Idealize.ShloMosaic.Pipeline (Dat)

variable {F : FTy → Type} [FloatOps F]
variable (m : (ℓ : Loc nD τ sig) → Buf (Elt F) ℓ)

/-! ## The output block, by the middle coordinate -/

theorem hz3 : (![0, 0, 0] : Fin 3 → Nat) = fun _ => 0 := funext fun a => by fin_cases a <;> rfl

/-- The output block as a function of the two input blocks. -/
def blockFn (x0 : Vec F S128x1x128 .f32) (x1 : Vec F S128x200x128 .f32) : Vec F S128x201x128 .f32 :=
  fun y =>
    if (y 1).val = 0 then x0 (ix3 (y 0) (0 : Fin 1) (y 2))
    else x1 (ix3 (y 0) ⟨(y 1).val - 1, by have h : (y 1).val < 201 := (y 1).isLt; omega⟩ (y 2))

theorem blockOut_eq (x0 : Vec F S128x1x128 .f32) (x1 : Vec F S128x200x128 .f32) : blockOut x0 x1 = blockFn x0 x1 := by
  funext y
  unfold blockOut
  refine View.canon_apply_of_pieces (blockFn x0 x1) _ ?_ y (blockOut_cover _ _ y)
  intro p hp x
  rcases List.mem_cons.mp hp with rfl | hp
  · -- the second store: the feature rows, one position further along the middle axis
    show View.ld x1 rIn1 x = blockFn x0 x1 ((rOut1 : Rect S128x201x128).emb x)
    rw [View.ld_unit_zero (S := S128x200x128) hz3]
    unfold blockFn
    have h1 : (((rOut1 : Rect S128x201x128).emb x) 1).val = 1 + 1 * (x 1).val := rfl
    rw [if_neg (by rw [h1]; omega)]
    congr 1
    funext a
    apply Fin.ext
    match a with
    | ⟨0, _⟩ => show (x 0).val = 0 + 1 * (x 0).val; omega
    | ⟨1, _⟩ => show (x 1).val = (1 + 1 * (x 1).val) - 1; omega
    | ⟨2, _⟩ => show (x 2).val = 0 + 1 * (x 2).val; omega
  · -- the first store: the looked-up rows at middle position 0
    obtain rfl := List.mem_singleton.mp hp
    show k1_pay1 (View.ld x0 rIn0) x = blockFn x0 x1 ((rOut0 : Rect S128x201x128).emb x)
    unfold k1_pay1
    rw [shapeCast_self, View.ld_unit_zero (S := S128x1x128) hz3]
    unfold blockFn
    have hx1 : (x 1).val < 1 := (x 1).isLt
    have h1 : (((rOut0 : Rect S128x201x128).emb x) 1).val = 0 + 1 * (x 1).val := rfl
    rw [if_pos (by rw [h1]; omega)]
    congr 1
    funext a
    apply Fin.ext
    match a with
    | ⟨0, _⟩ => show (x 0).val = 0 + 1 * (x 0).val; omega
    | ⟨1, _⟩ => show (x 1).val = 0; omega
    | ⟨2, _⟩ => show (x 2).val = 0 + 1 * (x 2).val; omega

/-! ## The reshaped intermediate array at an entry -/

theorem eArr_apply (d : Dev nD) (j : S1024x1x128.Idx) : eArr m d j = looked m d (ix2 (j 0) (j 2)) := by
  unfold eArr
  refine shapeCast_apply _ _ j (ix2 (j 0) (j 2)) ?_
  rw [Shape.rowMajor_val_two, Shape.rowMajor_val_three]
  have h1 : (j 1).val < 1 := (j 1).isLt
  show (j 0).val * 128 + (j 2).val = ((j 0).val * 1 + (j 1).val) * 128 + (j 2).val
  omega

/-! ## From the blocks to the array -/

/-- What the result array ends holding. -/
def Gfin (d : Dev nD) : Buf (Elt F) (rLoc d) := Cert.Spec.G (m (fLoc d)) (m (iLoc d)) (m (tLoc d))

/-- The printed index maps, decided over the 8 grid points: all three windows move together along the batch axis
    and sit at block 0 on the other two. -/
theorem idx_facts : ∀ t : Fin cfg1.N, win1_0.index t (0 : Fin 3) = win1_2.index t (0 : Fin 3)
    ∧ win1_0.index t (1 : Fin 3) = 0 ∧ win1_0.index t (2 : Fin 3) = 0
    ∧ win1_1.index t (0 : Fin 3) = win1_2.index t (0 : Fin 3)
    ∧ win1_1.index t (1 : Fin 3) = 0 ∧ win1_1.index t (2 : Fin 3) = 0
    ∧ win1_2.index t (1 : Fin 3) = 0 ∧ win1_2.index t (2 : Fin 3) = 0 ∧ win1_2.index t (0 : Fin 3) ≤ 7 :=
  (by decide +kernel : ∀ t : Fin grid1.N, _)

/-- Every group of 128 batch rows is some point's block. -/
theorem idx_onto : ∀ q0 : Fin 8, ∃ t : Fin cfg1.N, win1_2.index t = ![q0.val, 0, 0] :=
  (by decide +kernel : ∀ q0 : Fin 8, ∃ t : Fin grid1.N, win1_2.index t = ![q0.val, 0, 0])

/-- What point `t` writes back is block `t` of `Gfin`. -/
theorem flushed_eq (d : Dev nD) (t : Fin cfg1.N) :
    (dats m 0 d).flushed 2 t = ((cfg1.win 2).blk t).view.read (Elt F) (Gfin m d) := by
  show (cfg1.win 2).cut (grid1.coords t) ((dats m 0 d).after 2 t) = _
  rw [after1_2, blockOut_eq]
  obtain ⟨e0, e1, e2, f0, f1, f2, g1, g2, g0⟩ := idx_facts t
  funext j
  show blockFn (iblk m d 0 t) (iblk m d 1 t) j = Gfin m d (((cfg1.win 2).blk t).view.emb j)
  have hj0 : (j 0).val < 128 := (j 0).isLt
  have hj1 : (j 1).val < 201 := (j 1).isLt
  have hj2 : (j 2).val < 128 := (j 2).isLt
  have hE0 : ((((cfg1.win 2).blk t).view.emb j) 0).val = win1_2.index t (0 : Fin 3) * 128 + 1 * (j 0).val := rfl
  have hE1 : ((((cfg1.win 2).blk t).view.emb j) 1).val = win1_2.index t (1 : Fin 3) * 201 + 1 * (j 1).val := rfl
  have hE2 : ((((cfg1.win 2).blk t).view.emb j) 2).val = win1_2.index t (2 : Fin 3) * 128 + 1 * (j 2).val := rfl
  unfold blockFn Gfin Cert.Spec.G
  by_cases h : (j 1).val = 0
  · rw [if_pos h, if_pos (by rw [hE1]; omega)]
    unfold iblk
    show VR m d main_v1 (((cfg1.win 0).blk t).view.emb (ix3 (j 0) (0 : Fin 1) (j 2))) = _
    rw [VR_v1, eArr_apply]
    unfold looked
    have hA : (((cfg1.win 0).blk t).view.emb (ix3 (j 0) (0 : Fin 1) (j 2))) 0 = (((cfg1.win 2).blk t).view.emb j) 0 :=
      Fin.ext (by
        show win1_0.index t (0 : Fin 3) * 128 + 1 * (j 0).val = _
        rw [hE0]; omega)
    have hB : (((cfg1.win 0).blk t).view.emb (ix3 (j 0) (0 : Fin 1) (j 2))) 2 = (((cfg1.win 2).blk t).view.emb j) 2 :=
      Fin.ext (by
        show win1_0.index t (2 : Fin 3) * 128 + 1 * (j 2).val = _
        rw [hE2]; omega)
    rw [hA, hB]
    rfl
  · rw [if_neg h, if_neg (by rw [hE1]; omega)]
    unfold iblk
    show VR m d main_arg0 (((cfg1.win 1).blk t).view.emb (ix3 (j 0) (⟨(j 1).val - 1, by omega⟩ : Fin 200) (j 2))) = _
    rw [VR_arg0]
    congr 1
    funext a
    apply Fin.ext
    match a with
    | ⟨0, _⟩ =>
      show win1_1.index t (0 : Fin 3) * 128 + 1 * (j 0).val = win1_2.index t (0 : Fin 3) * 128 + 1 * (j 0).val
      omega
    | ⟨1, _⟩ =>
      show win1_1.index t (1 : Fin 3) * 200 + 1 * ((j 1).val - 1) = (win1_2.index t (1 : Fin 3) * 201 + 1 * (j 1).val) - 1
      omega
    | ⟨2, _⟩ =>
      show win1_1.index t (2 : Fin 3) * 128 + 1 * (j 2).val = win1_2.index t (2 : Fin 3) * 128 + 1 * (j 2).val
      omega

/-- An index of the result array is in point `t`'s block iff each coordinate is in the block's range. -/
theorem mem_blk (t : Fin cfg1.N) (i : S1024x201x128.Idx) :
    i ∈ ((cfg1.win 2).blk t).view.set ↔ ∀ a : Fin 3, win1_2.index t a * S128x201x128.size a ≤ (i a).val
      ∧ (i a).val < win1_2.index t a * S128x201x128.size a + S128x201x128.size a := by
  show i ∈ ((View.whole main_v2).slice (win1_2.rect t)).set ↔ _
  rw [View.set_slice_whole, Rect.mem_set_unit]
  exact Iff.rfl

/-- The 8 blocks cover the result array: batch row `b` lies in block `b / 128`. -/
theorem covered (i : S1024x201x128.Idx) :
    ∃ t : Fin cfg1.N, (cfg1.win 2).flush t = true ∧ i ∈ ((cfg1.win 2).blk t).view.set := by
  have hi0 : (i 0).val < 1024 := (i 0).isLt
  have hi1 : (i 1).val < 201 := (i 1).isLt
  have hi2 : (i 2).val < 128 := (i 2).isLt
  obtain ⟨t, ht⟩ := idx_onto ⟨(i 0).val / 128, by omega⟩
  have q0 : win1_2.index t (0 : Fin 3) = (i 0).val / 128 := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 128 ≤ (i 0).val ∧ (i 0).val < win1_2.index t (0 : Fin 3) * 128 + 128; omega
  | ⟨1, _⟩ => show win1_2.index t (1 : Fin 3) * 201 ≤ (i 1).val ∧ (i 1).val < win1_2.index t (1 : Fin 3) * 201 + 201; omega
  | ⟨2, _⟩ => show win1_2.index t (2 : Fin 3) * 128 ≤ (i 2).val ∧ (i 2).val < win1_2.index t (2 : Fin 3) * 128 + 128; omega

/-- The result array after the region: `Cert.Spec.G` of the three argument arrays. -/
theorem final (d : Dev nD) : (dats m 0 d).arrAt 2 cfg1.N = Gfin m d :=
  (dats m 0 d).arrAt_eq_of_cover 2 (Gfin m d) (fun t _ => flushed_eq m d t) covered

end Cert.Proof.KernelIdeal

end
-- ==== Proof.KernelIdealTile.lean ====
/-
  One vector subcore's task of the gather kernel, proved once at a symbolic place.

  The worker at grid coordinates `L` copies its 32 index words into a scratch list, gathers the 32 table rows
  the list names into a scratch block, and copies the block to its 32 rows of the intermediate array. Each copy
  has a semaphore of its own and is waited for right after its issue, so no copy's ends are touched while it is
  pending. From a read share of the table, the worker's index words and its rows of the intermediate array at
  any contents, the task ends with the same share and words and its rows holding, at row `b`, the table row
  that index word `b` names — provided every index word is below the table's row count, which is what lets
  the gather's engine serve every entry of the list.
-/
import proofs.«204669_g5978594476505_cont_9to1_m_202_17_alg».proof.Proof.KernelIdealSetup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ)

/-! ## The task's names -/

section Tile

variable (d : Dev nD) (L : grid0.Coords)

/-- The SparseCore and the vector subcore that run the task at grid coordinates `L`. -/
abbrev cV (L : grid0.Coords) : Fin τ.nSC := (L 0).castLE hcore0
abbrev jV (L : grid0.Coords) : Fin τ.nSub := (L 1).castLE hsub0

/-- The scratch list of index words and the scratch block of gathered rows. -/
abbrev sI : Memref sig .scVector .vmem S32 .i32 := Memref.whole cc0_scratch0
abbrev sR : Memref sig .scVector .vmem S32x128 .f32 := Memref.whole cc0_scratch1

/-- The three copies' semaphores as cells of the subcore. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

variable [FloatOps F]

omit [FloatOps F] in
/-- The subcore's scoped semaphores at zero: the three copies' and the rest. -/
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The buffers as the program's memrefs name them. -/
theorem pts_tV (q : PosShare TreeShare) (f : Buf (Elt F) (tLoc d)) :
    ((tV).view.loc (V d (cV L) (jV L)) ↦{q} f : sProp 𝕄) = tLoc d ↦{q} f := rfl
omit [FloatOps F] in
theorem pts_iSlice (f : Buf (Elt F) (iLoc d)) :
    ((iSlice L).view.loc (V d (cV L) (jV L)) ↦[(iSlice L).view.set]{fullShare} f : sProp 𝕄) = iLoc d ↦[iSet L]{fullShare} f := rfl
omit [FloatOps F] in
theorem pts_oSlice (f : Buf (Elt F) (oLoc d)) :
    ((oSlice L).view.loc (V d (cV L) (jV L)) ↦[(oSlice L).view.set]{fullShare} f : sProp 𝕄) = oLoc d ↦[oSet L]{fullShare} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The scratch list, once the worker's index words are copied into it, holds words below the table's row count,
    whatever it held before: each is one of the worker's index words. -/
theorem idx_inb (hpre : ∀ d : Dev nD, Cert.Spec.InRange (m (iLoc d))) (g : Buf (Elt F) ((sI).view.loc (V d (cV L) (jV L)))) (x : S32.Idx) :
    ((sI).view.read (Elt F) ((sI).view.write (Elt F) g (ReadAs.same.apply ((iSlice L).view.read (Elt F) (m (iLoc d)))) Finset.univ) x).toNat
      < 100000 := by
  rw [View.read_write_univ]
  exact hpre d _

/-! ## The value -/

/-- The whole table, sliced whole: the gather's source as the program names it. -/
abbrev tVs : Memref sig .scVector .hbm S100000x128 .f32 :=
  (tV).slice (Rect.unit (s := S100000x128) ![0, 0] S100000x128.size inb_S100000x128_S100000x128_0_0) (fun _ => rfl)

omit [FloatOps F] in
/-- After one write through a view's whole shape, the view's elements hold any contents the view reads as the
    payload. -/
theorem writes_whole_eq_on {κ : Kind} {sp : Space} {s : Shape} {e : EltTy} (v : View sig κ sp s e) (f G : v.ty.Contents (Elt F))
    (P : s.Idx → Elt F e) (h : ∀ x, P x = v.read (Elt F) G x) : ∀ y ∈ v.set, v.writes (Elt F) f [⟨Rect.whole s, P⟩] y = G y := by
  intro y hy
  obtain ⟨x, -, rfl⟩ := Finset.mem_map.mp hy
  have h1 := View.read_writes_cons_emb v f (Rect.whole s) P [] x
  rw [Rect.emb_whole_apply, h x, View.read_apply, View.read_apply] at h1
  exact (cast_inj _).mp h1

/-- Entry `x` of what the gather delivers — the table read at `x`'s own column and, for its row, at the row that
    entry `x 0` of the scratch list names — is what the looked-up array holds at `x`'s place in the worker's rows:
    the list's entry `k` is index word `off + k`, and row `k` of the worker's rows is row `off + k`. -/
theorem gathered_eq (hpre : ∀ d : Dev nD, Cert.Spec.InRange (m (iLoc d)))
    (fs : Buf (Elt F) ((sI).view.loc (V d (cV L) (jV L))))
    (hn : S32.numel = S32x128.size gathers_S100000x128_S32x128.axis')
    (hin : ∀ x, ((sI).view.read (Elt F) ((sI).view.write (Elt F) fs (ReadAs.same.apply ((iSlice L).view.read (Elt F) (m (iLoc d)))) Finset.univ) x).toNat
      < S100000x128.size gathers_S100000x128_S32x128.axis) (x : S32x128.Idx) :
    SparseCore.gatherPayload gathers_S100000x128_S32x128 ((tVs).view.read (Elt F) (m (tLoc d)))
        (SparseCore.rows ((sI).view.read (Elt F) ((sI).view.write (Elt F) fs (ReadAs.same.apply ((iSlice L).view.read (Elt F) (m (iLoc d)))) Finset.univ)) hn hin) x
      = (oSlice L).view.read (Elt F) (looked m d) x := by
  show m (tLoc d) ((tVs).view.emb (gathers_S100000x128_S32x128.idx _ x))
    = m (tLoc d) (ix2 (Cert.Spec.rowOf (m (iLoc d) (ix1 (((oSlice L).view.emb x) 0)))) (((oSlice L).view.emb x) 1))
  congr 1
  funext a
  apply Fin.ext
  match a with
  | ⟨0, _⟩ =>
    -- the row: the list's entry `x 0` read as a number, against the clamped reading of index word `off + x 0`
    have e := Shape.rowMajor_val_one (d := ![32]) (S32.rowMajor.symm ((x gathers_S100000x128_S32x128.axis').cast hn.symm))
    rw [Equiv.apply_symm_apply] at e
    have key : (iSlice L).view.emb (S32.rowMajor.symm ((x gathers_S100000x128_S32x128.axis').cast hn.symm)) = ix1 (((oSlice L).view.emb x) 0) := by
      funext b
      match b with
      | ⟨0, _⟩ =>
        apply Fin.ext
        show k0_off1 L 0 + 1 * ((S32.rowMajor.symm ((x gathers_S100000x128_S32x128.axis').cast hn.symm)) 0).val = k0_off2 L 0 + 1 * (x 0).val
        rw [← e, k0_off1_eq, k0_off2_eq]
        rfl
    show 0 + 1 * (((sI).view.read (Elt F) ((sI).view.write (Elt F) fs (ReadAs.same.apply ((iSlice L).view.read (Elt F) (m (iLoc d)))) Finset.univ)
        (S32.rowMajor.symm ((x gathers_S100000x128_S32x128.axis').cast hn.symm))).toNat)
      = (Cert.Spec.rowOf (m (iLoc d) (ix1 (((oSlice L).view.emb x) 0)))).val
    rw [Cert.Spec.rowOf_val (hpre d _), View.read_write_univ, Nat.zero_add, Nat.one_mul]
    exact congrArg (fun z => BitVec.toNat (m (iLoc d) z)) key
  | ⟨1, _⟩ =>
    -- the column: `x`'s own
    show 0 + 1 * (x 1).val = k0_off2 L 1 + 1 * (x 1).val
    rw [k0_off2_eq]
    rfl

/-- The worker's rows after the write-back of the scratch block: on the worker's rows they are the looked-up array,
    whatever the rows and the block held before. -/
theorem slice_looked (hpre : ∀ d : Dev nD, Cert.Spec.InRange (m (iLoc d))) (fo : Buf (Elt F) (oLoc d))
    (fs : Buf (Elt F) ((sI).view.loc (V d (cV L) (jV L)))) (fr : Buf (Elt F) ((sR).view.loc (V d (cV L) (jV L))))
    (hn : S32.numel = S32x128.size gathers_S100000x128_S32x128.axis')
    (hin : ∀ x, ((sI).view.read (Elt F) ((sI).view.write (Elt F) fs (ReadAs.same.apply ((iSlice L).view.read (Elt F) (m (iLoc d)))) Finset.univ) x).toNat
      < S100000x128.size gathers_S100000x128_S32x128.axis) :
    ∀ y ∈ (oSlice L).view.set,
      (oSlice L).view.writes (Elt F) fo [⟨Rect.whole S32x128, ReadAs.same.apply ((sR).view.read (Elt F) ((sR).view.writes (Elt F) fr
        [⟨Rect.whole S32x128, SparseCore.gatherPayload gathers_S100000x128_S32x128 ((tVs).view.read (Elt F) (m (tLoc d)))
          (SparseCore.rows ((sI).view.read (Elt F) ((sI).view.write (Elt F) fs (ReadAs.same.apply ((iSlice L).view.read (Elt F) (m (iLoc d)))) Finset.univ)) hn hin)⟩]))⟩] y
        = looked m d y :=
  writes_whole_eq_on (oSlice L).view fo (looked m d) _ fun x => by
    have h1 := View.read_writes_cons_emb (sR).view fr (Rect.whole S32x128) (SparseCore.gatherPayload gathers_S100000x128_S32x128 ((tVs).view.read (Elt F) (m (tLoc d)))
      (SparseCore.rows ((sI).view.read (Elt F) ((sI).view.write (Elt F) fs (ReadAs.same.apply ((iSlice L).view.read (Elt F) (m (iLoc d)))) Finset.univ)) hn hin)) [] x
    rw [Rect.emb_whole_apply] at h1
    exact h1.trans (gathered_eq m d L hpre fs hn hin x)

/-- The task: from the share, the words and the rows, to the rows holding the looked-up table rows. -/
theorem tile_body (q : PosShare TreeShare) (hF : (K (F := F)).Facts) (hpre : ∀ d : Dev nD, Cert.Spec.InRange (m (iLoc d)))
    (O : CellTallies nD τ sig (HIx 1)) (W : Waits sig (HIx 1)) (hO : ∀ g, O g none = 0) :
    (iprop(levAts (K (F := F)).L (K (F := F)).lev
        ∗ ((tLoc d ↦{q} m (tLoc d)) ∗ (iLoc d ↦[iSet L]{fullShare} m (iLoc d)) ∗ ∃ f, oLoc d ↦[oSet L]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_gather_kernel L tV (Memref.isWhole_whole _) iV (Memref.isWhole_whole _) oV (Memref.isWhole_whole _)
            sI (Memref.isWhole_whole _) sR (Memref.isWhole_whole _) cc0_scratch2 cc0_scoped0 cc0_scoped1)
          fun _ => iprop(((tLoc d ↦{q} m (tLoc d)) ∗ (iLoc d ↦[iSet L]{fullShare} m (iLoc d)) ∗ oLoc d ↦[oSet L]{fullShare} looked m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, ⟨Ht, Hi, ⟨%fo, Ho⟩⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_tV (F := F) d L q _).symm) $$ Ht
  ihave Hi' := (Entails.of_eq (pts_iSlice (F := F) d L _).symm) $$ Hi
  ihave Ho' := (Entails.of_eq (pts_oSlice (F := F) d L _).symm) $$ Ho
  ihave Hs' := (Entails.of_eq (pts_sI (F := F) d L _).symm) $$ Hs
  ihave Hr' := (Entails.of_eq (pts_sR (F := F) d L _).symm) $$ Hr
  have hin := idx_inb m d L hpre
  sl_exec
  sl_step
  isplitl [Ht' Hi' Ho']
  · isplitl [Ht']; · iexact Ht'
    isplitl [Hi']; · iexact Hi'
    ihave Ho2 := (Entails.of_eq (pointsTo_congr (slice_looked m d L hpre fo fs fr rfl (hin fs)))) $$ Ho'
    iexact Ho2
  isplitl [Hs' Hr' Hbufs]
  · isplitl [Hs']; · iexists _; iexact Hs'
    isplitl [Hr']; · iexists _; iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap
  · iexact HO
  · -- the three waits were recorded at no call's index
    ipureintro
    intro p hp
    simp only [Finset.mem_insert] at hp
    rcases hp with rfl | rfl | rfl | hp
    · exact Or.inr rfl
    · exact Or.inr rfl
    · exact Or.inr rfl
    · exact Or.inl hp

end Tile

/-! ## The launch theorem's obligations -/

variable [FloatOps F]

/-- The kernels' table at a vector subcore: the gather kernel at the subcore's grid coordinates. -/
theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
/-- A task that recorded waits at no call's index recorded them at no index or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- The launch deals this kernel nothing beside its operands. -/
theorem obl_pre {A G B C E : sProp 𝕄} : iprop(A ∗ emp ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

theorem P_go (d : Dev nD) (c : Fin ((K (F := F)).nCore 0)) (i : Fin ((K (F := F)).nSub 0)) :
    (P m).go 0 d c i = goRes m d (c.cast (nCore_eq 0)) (i.cast (nSub_eq 0)) := rfl
theorem P_td (d : Dev nD) (c : Fin ((K (F := F)).nCore 0)) (i : Fin ((K (F := F)).nSub 0)) :
    (P m).td 0 d c i = tdRes m d (c.cast (nCore_eq 0)) (i.cast (nSub_eq 0)) := rfl
theorem P_x (thr : Thread nD τ) : (P m).x 0 thr = iprop(emp) := rfl

theorem tileObl (hF : (K (F := F)).Facts) (hpre : ∀ d : Dev nD, Cert.Spec.InRange (m (iLoc d))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, P_x]
  unfold goRes tdRes
  exact obl_pre.trans ((tile_body m d (coordsV ⟨_, hc.1⟩ ⟨_, hc.2⟩) (tShare (c.cast (nCore_eq 0)) (i.cast (nSub_eq 0))) hF hpre O W hO).trans
    (wp_mono frame _ _ fun _ => obl_post))

/-- A SparseCore's operands are its sixteen workers' operands, and its results theirs: nothing to split. -/
theorem P_st (d : Dev nD) (c : Fin ((K (F := F)).nCore 0)) :
    (P m).st 0 d c = bigSep Finset.univ fun i : Fin ((K (F := F)).nSub 0) => (P m).go 0 d c i := rfl
theorem P_dn (d : Dev nD) (c : Fin ((K (F := F)).nCore 0)) :
    (P m).dn 0 d c = bigSep Finset.univ fun i : Fin ((K (F := F)).nSub 0) => (P m).td 0 d c i := rfl

theorem vecSplit : (K (F := F)).VecSplit' (P m) 0 := by
  intro d c
  rw [P_st, P_dn]
  iintro Hst
  imodintro
  isplitl [Hst]
  · iexact Hst
  · iintro Htd; iexact Htd

end Cert.Proof.KernelIdeal

end
-- ==== Proof.KernelIdealRun.lean ====
/-
  The whole program's run: every weakly fair execution of the TensorCore and the 34 SparseCore threads ends, and
  leaves the three argument arrays unchanged and the result array holding `Cert.Spec.G` of them.
-/
import proofs.«204669_g5978594476505_cont_9to1_m_202_17_alg».proof.Proof.KernelIdealMain
import proofs.«204669_g5978594476505_cont_9to1_m_202_17_alg».proof.Proof.KernelIdealValue
import proofs.«204669_g5978594476505_cont_9to1_m_202_17_alg».proof.Proof.KernelIdealTile

noncomputable section

namespace Cert.Proof.KernelIdeal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- What the run leaves, with the result array as the region's write-backs made it. -/
def QC : PUnit × MemSt nD τ sig (Elt F) → Prop := fun r => ∀ c : Dev nD,
  r.2.mem (rLoc c) = (dats m 0 c).arrAt 2 cfg1.N ∧ r.2.mem (fLoc c) = m (fLoc c)
    ∧ r.2.mem (iLoc c) = m (iLoc c) ∧ r.2.mem (tLoc c) = m (tLoc c)

theorem run_main [∀ e, Nonempty (Elt F e)] (hpre : ∀ d : Dev nD, Cert.Spec.InRange (m (iLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (Gd (F := F)) (FIN m) (u₀ (F := F)) (sep_elim_left.trans (hu₀ m)) (hmain m ρ) (fq m) (hfin m) (QC m) (fun _ h => h)

/-- The run with the result named: the result array ends at `Cert.Spec.G` of the arguments, the arguments unchanged. -/
theorem run [∀ e, Nonempty (Elt F e)] (hpre : ∀ d : Dev nD, Cert.Spec.InRange (m (iLoc d))) :
    θ_run (Cert.KernelIdeal.defs (F := F)) (Cert.KernelIdeal.threads (F := F)) ⟨m, fun _ => 0, ρ⟩ (fun r => ∀ c : Dev nD,
      r.2.mem ((c.tc : Thread nD τ).loc main_v2)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := F)) _ _).mono
    (fun r h c => ⟨(h c).1.trans (final m c), (h c).2.1, (h c).2.2.1, (h c).2.2.2⟩) (run_main m ρ hpre)

end Cert.Proof.KernelIdeal

end
-- ==== Proof.RefOps.lean ====
/-
  The reference program as a straight line of host operations, and its run.

  The program subtracts zero from the index words, calls the lookup function (which wraps negative words
  by the table's row count, builds the in-bounds mask, gathers whole table rows and blanks the rows whose
  mask is clear), gives the looked-up rows a middle axis of length one and joins them in front of the
  feature rows. The lookup function and the select function it calls are unfolded at their call sites, so
  the whole program is one list of twenty-eight host operations. Every weakly fair execution terminates
  with each buffer at the fold of the operations' results over the launch contents.
-/
import proofs.«204669_g5978594476505_cont_9to1_m_202_17_alg».proof.ReferenceIdeal
import proofs.«204669_g5978594476505_cont_9to1_m_202_17_alg».proof.Proof.Gen.ReferenceIdeal
import Idealize.ShloMosaic.Lib.StableHlo.Run

noncomputable section

namespace Cert.Proof.RefOps

open Cert.ReferenceIdeal Cert.ReferenceIdeal.Facts₀ Idealize.ShloMosaic Idealize.ShloMosaic.TcCoe Idealize.SL.Sem
  Idealize.ShloMosaic.StableHlo

variable {F : FTy → Type} [FloatOps F]

/-- The program's operations in order: three of its own, the lookup function's twenty-three (the select
    function's one among them, seventh), then two of its own. -/
abbrev ops : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg1 main_v0 main_v1 (subi : (⟨S1024, .i32⟩ : BufTy).Contents (Elt F) → (⟨S1024, .i32⟩ : BufTy).Contents (Elt F) → (⟨S1024, .i32⟩ : BufTy).Contents (Elt F)),
    TRef.nullary main_call0.c (constantI S_ 32 0#32),
    TRef.unary main_call0.c main_call0.v0 (broadcastInDim S1024 ![] bcast_S_S1024),
    TRef.binary (.of main_v1) main_call0.v0 main_call0.v1 (cmpi .slt),
    TRef.nullary main_call0.c_0 (constantI S_ 32 100000#32),
    TRef.unary main_call0.c_0 main_call0.v2 (broadcastInDim S1024 ![] bcast_S_S1024),
    TRef.binary (.of main_v1) main_call0.v2 main_call0.v3 addi,
    TRef.ternary main_call0.v1 main_call0.v3 (.of main_v1) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg2) main_call0.v5 main_call0.v13 (fun x i => Host.gather gather_S100000x128_S1024x1_S1024x128_1_0_n_n_0_1_1128 x i),
    TRef.unary main_call0.v12 main_call0.v14 (broadcastInDim S1024x128 ![0] bcast_S1024_S1024x128_0),
    TRef.nullary main_call0.cst (constant S_ .f32 0x7FC00000#32),
    TRef.unary main_call0.cst main_call0.v15 (broadcastInDim S1024x128 ![] bcast_S_S1024x128),
    TRef.ternary main_call0.v14 main_call0.v13 main_call0.v15 main_call0.v16 select,
    unary main_v2 main_v3 (broadcastInDim S1024x1x128 ![0, 2] bcast_S1024x128_S1024x1x128_0_2 : (⟨S1024x128, .f32⟩ : BufTy).Contents (Elt F) → (⟨S1024x1x128, .f32⟩ : BufTy).Contents (Elt F)),
    binary main_v3 main_arg0 main_v4 ((fun a b => concatenate S1024x201x128 1 [⟨S1024x1x128, a⟩, ⟨S1024x200x128, b⟩] concatenates_S1024x1x128_S1024x200x128_S1024x201x128_d1) : (⟨S1024x1x128, .f32⟩ : BufTy).Contents (Elt F) → (⟨S1024x200x128, .f32⟩ : BufTy).Contents (Elt F) → (⟨S1024x201x128, .f32⟩ : BufTy).Contents (Elt F)) ]

set_option maxRecDepth 1024 in
/-- The program is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub ..⟩

/-- From any memory with zero counters, every weakly fair execution of the program terminates, and every
    final state has each buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefOps

end
-- ==== Proof.LibRowGatherScatter.lean ====
/-
  A gather of whole rows and an accumulating scatter of whole rows, read at an entry, for any extents.

  The operand is a matrix [N, D]; the start indices are a column [E, 1] of integers, one per edge. The gather's
  result [E, D] has, in row e, the operand's row whose number is the e-th start index read as a signed integer and
  clamped into [0, N - 1]. The same for a vector operand [N] and result [E]. The scatter adds row e of the updates
  [E, D] into the operand's row whose number is the e-th index read as a signed integer, NOT clamped: an update whose
  index is outside [0, N) is dropped. So an update entry (e, q) that lands on entry (i, q') has index exactly i and q = q'.
-/
import Idealize.ShloMosaic.Lib.ValueIdx
import Idealize.ShloMosaic.Lib.Pipeline.Value
import Idealize.ShloMosaic.PureOps.Ideal.Laws

noncomputable section

namespace RowGatherScatter

open Idealize.ShloMosaic Idealize.ShloMosaic.ValueIdx

variable {α : Type}

/-- The dimension numbers of a gather of whole rows: operand [N, D], start indices [E, 1], result [E, D]. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of a gather of entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of an accumulating scatter of whole rows: operand [N, D], indices [E, 1], updates [E, D]. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row edge e reads: its start index read signed and clamped into [0, N - 1]. -/
def startRow {E w : Nat} (N : Nat) (hN : 0 < N) (idx : IVec ⟨2, ![E, 1]⟩ w) (e : Fin E) : Fin N :=
  ⟨min (idx (ix2 e (0 : Fin 1))).toInt.toNat (N - 1), by omega⟩

/-- The gather of rows at entry (e, q): the operand at (the row edge e reads, q). -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGatherDims N E D wf) x idx (ix2 e q) = x (ix2 (startRow N hN idx e) q) := by
  unfold Host.gather
  congr 1
  funext a
  refine Fin.ext ?_
  match a with
  | ⟨0, _⟩ =>
    show (rowGatherDims N E D wf).start (ix2 e q) idx 0 + (rowGatherDims N E D wf).batchCoord (ix2 e q) 0
      + (rowGatherDims N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e q) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e q) idx 1 + (rowGatherDims N E D wf).batchCoord (ix2 e q) 1
      + (rowGatherDims N E D wf).offCoord (ix2 e q) 1 = q.val
    rw [GatherDims.batchCoord_eq_zero _ _ _ List.not_mem_nil]
    have hs : (rowGatherDims N E D wf).start (ix2 e q) idx 1 = 0 := by
      unfold GatherDims.start
      rw [dif_neg (show (1 : Fin 2) ∉ [(0 : Fin 2)] by decide)]
    rw [hs]
    have ho : (rowGatherDims N E D wf).offCoord (ix2 e q) 1 = q.val := by
      unfold GatherDims.offCoord
      rw [dif_pos ((GatherDims.mem_sKept _ _).mpr ⟨(show (1 : Fin 2) ∉ [(0 : Fin 2)] by decide), List.not_mem_nil⟩)]
      rfl
    rw [ho]
    omega

/-- The gather of a vector's entries at e: the operand at the row edge e reads. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (startRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- An update entry (e, q) of a scatter of rows that lands on entry i of the operand: the e-th index, read signed, is
    i's row, and q is i's column. -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (i : (⟨2, ![N, D]⟩ : Shape).Idx)
    (h : (rowScatterDims N E D wf).resultIdx? (ix2 e q) idx = some i) :
    (idx (ix2 e (0 : Fin 1))).toInt = ((i 0).val : Int) ∧ (i 1).val = q.val := by
  unfold ScatterDims.resultIdx? at h
  split at h
  · rename_i hin
    have hi := Option.some.inj h
    have hs0 : (rowScatterDims N E D wf).start (ix2 e q) idx 0 = (idx (ix2 e (0 : Fin 1))).toInt := by
      unfold ScatterDims.start
      rw [dif_pos (show (0 : Fin 2) ∈ (rowScatterDims N E D wf).scatterDimsToOperandDims from List.mem_singleton.mpr rfl)]
      have hsi : (rowScatterDims N E D wf).siIdx (ix2 e q) ⟨List.idxOf (0 : Fin 2) (rowScatterDims N E D wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N E D wf).window (ix2 e q) 0 = 0 := by
      unfold ScatterDims.window
      rw [dif_neg (by simp [ScatterDims.sKept, Shape.kept])]
    have hs1 : (rowScatterDims N E D wf).start (ix2 e q) idx 1 = 0 := by
      unfold ScatterDims.start
      rw [dif_neg (show (1 : Fin 2) ∉ [(0 : Fin 2)] by decide)]
    have hw1 : (rowScatterDims N E D wf).window (ix2 e q) 1 = q.val := by
      unfold ScatterDims.window
      rw [dif_pos (by simp [ScatterDims.sKept, Shape.kept])]
      rfl
    have h0 := hin 0
    have e0 := congrArg (fun j : (⟨2, ![N, D]⟩ : Shape).Idx => (j 0).val) hi
    have e1 := congrArg (fun j : (⟨2, ![N, D]⟩ : Shape).Idx => (j 1).val) hi
    simp only at e0 e1
    rw [hs0, hw0] at h0 e0
    rw [hs1, hw1] at e1
    constructor
    · omega
    · omega
  · exact absurd h (by simp)

end RowGatherScatter

end
-- ==== Proof.RefValue.lean ====
/-
  What the reference program computes, entry by entry.

  The program's operations compose to one pure term of its three argument arrays. Where every index word
  is below the table's row count, each step of the lookup is inert or exact: subtracting zero changes
  nothing; no word is negative, so none is wrapped; every word lies between 0 and 99999, so the in-bounds
  mask is all ones and the blanking select keeps the gathered row; the gather's clamp leaves the word's
  value, so the row read is the one the word names. Joined in front of the feature rows along the middle
  axis, position 0 holds the looked-up row and position 1 + t the feature row t.
-/
import proofs.«204669_g5978594476505_cont_9to1_m_202_17_alg».proof.Proof.RefOps
import proofs.«204669_g5978594476505_cont_9to1_m_202_17_alg».proof.Proof.Spec
import proofs.«204669_g5978594476505_cont_9to1_m_202_17_alg».proof.Proof.LibRowGatherScatter
import Idealize.ShloMosaic.Lib.Pipeline.Value
import Idealize.ShloMosaic.Lib.ValueIdx
import Idealize.ShloMosaic.Lib.Affine

noncomputable section

namespace Cert.Proof.RefValue

open Cert.ReferenceIdeal Cert.ReferenceIdeal.Facts₀ Idealize.ShloMosaic Idealize.ShloMosaic.ValueIdx

variable {F : FTy → Type} [FloatOps F]

/-! ## The composed term -/

/-- The index words after the wrap: a word that reads negative has the row count added. -/
def wrapped (i : IVec S1024 32) : IVec S1024 32 :=
  select (cmpi .slt i (broadcastInDim S1024 ![] bcast_S_S1024 (constantI S_ 32 0#32)))
    (addi i (broadcastInDim S1024 ![] bcast_S_S1024 (constantI S_ 32 100000#32))) i

/-- The wrapped words as a column of start indices. -/
def startCol (i : IVec S1024 32) : IVec S1024x1 32 :=
  broadcastInDim S1024x1 ![0] bcast_S1024_S1024x1_0 (wrapped i)

/-- The in-bounds mask: per batch row, whether its start index lies between 0 and 99999 read signed. -/
def inBounds (i : IVec S1024 32) : IVec S1024 1 :=
  Host.reduce IntOp.andi
    (andi (cmpi .sge (startCol i) (broadcastInDim S1024x1 ![] bcast_S_S1024x1 (constantI S_ 32 0#32)))
      (cmpi .sle (startCol i)
        (broadcastInDim S1024x1 ![0, 1] bcast_S1x1_S1024x1_0_1 (broadcastInDim S1x1 ![1] bcast_S1_S1x1_1 (constantI S1 32 99999#32)))))
    (constantI S_ 1 1#1) reducesTo_S1024x1_S1024_d1 h_S_

/-- The lookup: the gathered table rows, blanked where the mask is clear. -/
def lookup (tab : FVec F S100000x128 .f32) (i : IVec S1024 32) : FVec F S1024x128 .f32 :=
  select (broadcastInDim S1024x128 ![0] bcast_S1024_S1024x128_0 (inBounds i))
    (Host.gather gather_S100000x128_S1024x1_S1024x128_1_0_n_n_0_1_1128 tab (startCol i))
    (broadcastInDim S1024x128 ![] bcast_S_S1024x128 (constant S_ .f32 0x7FC00000#32))

/-- The whole program: the looked-up rows given a middle axis of length one, joined in front of the features. -/
def refTerm (feat : FVec F S1024x200x128 .f32) (idx : IVec S1024 32) (tab : FVec F S100000x128 .f32) :
    FVec F S1024x201x128 .f32 :=
  concatenate S1024x201x128 1
    [⟨S1024x1x128, broadcastInDim S1024x1x128 ![0, 2] bcast_S1024x128_S1024x1x128_0_2
        (lookup tab (subi idx (broadcastInDim S1024 ![] bcast_S_S1024 (constantI S_ 32 0#32))))⟩,
      ⟨S1024x200x128, feat⟩]
    concatenates_S1024x1x128_S1024x200x128_S1024x201x128_d1

/-! ## Its entries -/

/-- Subtracting the zero vector changes nothing. -/
theorem subi_zero (idx : IVec S1024 32) :
    subi idx (broadcastInDim S1024 ![] bcast_S_S1024 (constantI S_ 32 0#32)) = idx := by
  funext k
  show idx k - 0#32 = idx k
  exact BitVec.sub_zero _

/-- A word below the row count is not negative, so the wrap leaves it. -/
theorem wrapped_apply (i : IVec S1024 32) (k : S1024.Idx) (hk : (i k).toNat < 100000) : wrapped i k = i k := by
  unfold wrapped
  rw [select_apply]
  have hc : ¬ cmpi .slt i (broadcastInDim S1024 ![] bcast_S_S1024 (constantI S_ 32 0#32)) k = 1#1 := by
    show ¬ IntOp.cmpi .slt (i k) 0#32 = 1#1
    rw [IntOp.cmpi_slt, Cert.Spec.toInt_of_lt hk, show (0#32 : BitVec 32).toInt = 0 from by decide]
    omega
  exact if_neg hc

/-- The start index of batch row `b` is its word. -/
theorem startCol_apply (i : IVec S1024 32) (b : Fin 1024) (z : Fin 1) (hb : (i (ix1 b)).toNat < 100000) :
    startCol i (ix2 b z) = i (ix1 b) := by
  unfold startCol
  rw [broadcastInDim_apply _ bcast_S1024_S1024x1_0 (wrapped i) (ix2 b z) (ix1 b) (fun ax => match ax with
    | ⟨0, _⟩ => rfl)]
  exact wrapped_apply i (ix1 b) hb

/-- A left fold by `and` from 1 over words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all_one f l fun n hn => h n (List.mem_cons_of_mem _ hn)

/-- A reduction by `and` from the constant 1 of an array that is 1 everywhere is 1 everywhere. -/
theorem reduce_andi_of_all_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_of_all_one x _ fun n _ => hx n

/-- Where every word is below the row count the in-bounds mask is all ones. -/
theorem inBounds_apply (i : IVec S1024 32) (hi : Cert.Spec.InRange i) (k : S1024.Idx) : inBounds i k = 1#1 := by
  unfold inBounds
  refine reduce_andi_of_all_one _ _ _ _ rfl (fun p => ?_) k
  rw [eq_ix2 p]
  have hb := hi (ix1 (p 0))
  show IntOp.andi (IntOp.cmpi .sge (startCol i (ix2 (p 0) (p 1))) 0#32)
    (IntOp.cmpi .sle (startCol i (ix2 (p 0) (p 1))) 99999#32) = 1#1
  rw [startCol_apply i (p 0) (p 1) hb, IntOp.andi_eq_one, IntOp.cmpi_sge, IntOp.cmpi_sle, Cert.Spec.toInt_of_lt hb,
    show (0#32 : BitVec 32).toInt = 0 from by decide, show (99999#32 : BitVec 32).toInt = 99999 from by decide]
  omega

/-- The row the gather reads for batch row `b` is the one its word names. -/
theorem startRow_eq (i : IVec S1024 32) (b : Fin 1024) (hb : (i (ix1 b)).toNat < 100000) :
    RowGatherScatter.startRow 100000 (by decide) (startCol i) b = Cert.Spec.rowOf (i (ix1 b)) := by
  refine Fin.ext ?_
  show min (startCol i (ix2 b (0 : Fin 1))).toInt.toNat (100000 - 1) = min (i (ix1 b)).toNat 99999
  rw [startCol_apply i b 0 hb, Cert.Spec.toInt_of_lt hb, Int.toNat_natCast]

/-- Where every word is below the row count, entry (b, d) of the lookup is the table's entry (row named by word b, d). -/
theorem lookup_apply (tab : FVec F S100000x128 .f32) (i : IVec S1024 32) (hi : Cert.Spec.InRange i) (b : Fin 1024) (d : Fin 128) :
    lookup tab i (ix2 b d) = tab (ix2 (Cert.Spec.rowOf (i (ix1 b))) d) := by
  unfold lookup
  rw [select_apply]
  rw [broadcastInDim_apply _ bcast_S1024_S1024x128_0 (inBounds i) (ix2 b d) (ix1 b) (fun ax => match ax with
    | ⟨0, _⟩ => rfl), inBounds_apply i hi, select_one]
  show Host.gather (RowGatherScatter.rowGatherDims 100000 1024 128 gather_S100000x128_S1024x1_S1024x128_1_0_n_n_0_1_1128_wf)
    tab (startCol i) (ix2 b d) = _
  rw [RowGatherScatter.rowGather_apply (by decide), startRow_eq i b (hi (ix1 b))]

/-- Middle position 0 holds the looked-up row. -/
theorem refTerm_zero (feat : FVec F S1024x200x128 .f32) (idx : IVec S1024 32) (tab : FVec F S100000x128 .f32)
    (hi : Cert.Spec.InRange idx) (b : Fin 1024) (d : Fin 128) :
    refTerm feat idx tab (ix3 b (0 : Fin 201) d) = tab (ix2 (Cert.Spec.rowOf (idx (ix1 b))) d) := by
  unfold refTerm
  rw [concatenate_pair_apply_left (t := S1024x201x128) (s₁ := S1024x1x128) (s₂ := S1024x200x128) (1 : Fin 3) _ _ _
    (ix3 b (0 : Fin 201) d) rfl (ix3 b (0 : Fin 1) d) (fun ax => match ax with
    | ⟨0, _⟩ => rfl
    | ⟨1, _⟩ => rfl
    | ⟨2, _⟩ => rfl)]
  rw [broadcastInDim_apply _ bcast_S1024x128_S1024x1x128_0_2 _ (ix3 b (0 : Fin 1) d) (ix2 b d) (fun ax => match ax with
    | ⟨0, _⟩ => rfl
    | ⟨1, _⟩ => rfl)]
  rw [subi_zero, lookup_apply tab idx hi]

/-- Middle position 1 + t holds the feature row t. -/
theorem refTerm_succ (feat : FVec F S1024x200x128 .f32) (idx : IVec S1024 32) (tab : FVec F S100000x128 .f32)
    (b : Fin 1024) (t : Fin 200) (d : Fin 128) :
    refTerm feat idx tab (ix3 b (⟨t.val + 1, by omega⟩ : Fin 201) d) = feat (ix3 b t d) := by
  unfold refTerm
  exact concatenate_pair_apply_right (t := S1024x201x128) (s₁ := S1024x1x128) (s₂ := S1024x200x128) (1 : Fin 3) _ _ _
    (ix3 b (⟨t.val + 1, by omega⟩ : Fin 201) d) rfl rfl (ix3 b t d)
    (fun ax => match ax with
      | ⟨0, _⟩ => fun _ => rfl
      | ⟨1, _⟩ => fun hne => absurd rfl hne
      | ⟨2, _⟩ => fun _ => rfl)
    rfl

/-- Where every index word is below the row count, the program's term is the specified function. -/
theorem refTerm_eq_G (feat : FVec F S1024x200x128 .f32) (idx : IVec S1024 32) (tab : FVec F S100000x128 .f32)
    (hi : Cert.Spec.InRange idx) : refTerm feat idx tab = Cert.Spec.G feat idx tab := by
  funext j
  rw [eq_ix3 j]
  rcases (j 1) with ⟨_ | s, hs⟩
  · exact (refTerm_zero feat idx tab hi (j 0) (j 2)).trans (Cert.Spec.G_zero feat idx tab (j 0) (j 2)).symm
  · have hs' : s + 1 < 201 := hs
    exact (refTerm_succ feat idx tab (j 0) ⟨s, by omega⟩ (j 2)).trans
      (Cert.Spec.G_succ feat idx tab (j 0) ⟨s, by omega⟩ (j 2)).symm

end Cert.Proof.RefValue

end
-- ==== Proof.RefRun.lean ====
/-
  The reference program's run: every weakly fair execution terminates, the result buffer holds the
  specified function of the argument arrays (where every index word is below the table's row count),
  and the argument arrays are unchanged.

  The fold of the program's operations over the launch contents is, at the result buffer, the composed
  pure term of the three arguments; no operation writes an argument buffer.
-/
import proofs.«204669_g5978594476505_cont_9to1_m_202_17_alg».proof.ReferenceIdeal
import proofs.«204669_g5978594476505_cont_9to1_m_202_17_alg».proof.Proof.Gen.ReferenceIdeal
import proofs.«204669_g5978594476505_cont_9to1_m_202_17_alg».proof.Proof.Spec
import proofs.«204669_g5978594476505_cont_9to1_m_202_17_alg».proof.Proof.RefOps
import proofs.«204669_g5978594476505_cont_9to1_m_202_17_alg».proof.Proof.RefValue
import Idealize.ShloMosaic.Lib.StableHlo.Run

noncomputable section

namespace Cert.Proof.RefRun

open Cert.ReferenceIdeal Idealize.ShloMosaic Idealize.ShloMosaic.TcCoe Idealize.SL.Sem Idealize.ShloMosaic.StableHlo
  Cert.Proof.RefOps Cert.Proof.RefValue

variable {F : FTy → Type} [FloatOps F]

attribute [local irreducible] Host.reduce Host.gather concatenate in
set_option maxRecDepth 8192 in
set_option maxHeartbeats 2000000 in
/-- After the operations the result buffer holds the composed term of the three arguments. -/
theorem out_eq (V : Valuation τ sig (Elt F)) :
    after ops V (main_v4 : DevRef τ sig)
      = refTerm (V (main_arg0 : DevRef τ sig)) (V (main_arg1 : DevRef τ sig)) (V (main_arg2 : DevRef τ sig)) := by
  after_results
  simp only [cast_eq]
  unfold refTerm lookup inBounds startCol wrapped
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- No operation writes the third argument. -/
theorem arg2_eq (V : Valuation τ sig (Elt F)) :
    after ops V (main_arg2 : DevRef τ sig) = V (main_arg2 : DevRef τ sig) := by
  after_results

/-- From any memory with zero counters whose index words are all below the table's row count: every weakly
    fair execution of the program terminates with the result buffer at the specified function of the
    arguments and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hr : ∀ c : Dev Cert.ReferenceIdeal.nD, Cert.Spec.InRange (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v4)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
      ⟨(h c main_v4).trans ((out_eq _).trans (refTerm_eq_G _ _ _ (hr c))),
        (h c main_arg0).trans (arg0_eq _),
        (h c main_arg1).trans (arg1_eq _),
        (h c main_arg2).trans (arg2_eq _)⟩)
    (run_main m g)

end Cert.Proof.RefRun

end
-- ==== Proof.lean ====
/-
  The certificate's five claims.

  Both programs move data and compute nothing: for each batch row the result holds, at middle position 0, the
  table row that the row's index word names, and after it the row's 200 feature rows (`Cert.Spec.G`). The
  precondition bounds every index word below the table's 100000 rows (`Cert.Proof.PreRange.inRange`), which is
  what the kernel's indexed copy needs to complete and what makes the reference's wrap-around, clamp and mask
  inert. The kernel's run (`Cert.Proof.Kernel.run` at the word level, `Cert.Proof.KernelIdeal.run` at the ideal
  level: one text, two instances) ends with the arguments unchanged and the result at `Cert.Spec.G` of them; the
  reference's run (`Cert.Proof.RefRun.run`) ends at the same function. The three frames are these runs with the
  result dropped; the idealization rewrote nothing, so there is nothing to preserve; and the two idealized runs
  agree because they end at one function of arguments that agree.
-/
import proofs.«204669_g5978594476505_cont_9to1_m_202_17_alg».proof.Defs
import proofs.«204669_g5978594476505_cont_9to1_m_202_17_alg».proof.Proof.Gen.Kernel
import proofs.«204669_g5978594476505_cont_9to1_m_202_17_alg».proof.Proof.Gen.Kernel.Skeleton
import proofs.«204669_g5978594476505_cont_9to1_m_202_17_alg».proof.Proof.Gen.Kernel.Launch
import proofs.«204669_g5978594476505_cont_9to1_m_202_17_alg».proof.Proof.Gen.Kernel.Points
import proofs.«204669_g5978594476505_cont_9to1_m_202_17_alg».proof.Proof.Gen.KernelIdeal
import proofs.«204669_g5978594476505_cont_9to1_m_202_17_alg».proof.Proof.Gen.KernelIdeal.Skeleton
import proofs.«204669_g5978594476505_cont_9to1_m_202_17_alg».proof.Proof.Gen.KernelIdeal.Launch
import proofs.«204669_g5978594476505_cont_9to1_m_202_17_alg».proof.Proof.Gen.KernelIdeal.Points
import proofs.«204669_g5978594476505_cont_9to1_m_202_17_alg».proof.Proof.Gen.ReferenceIdeal
import proofs.«204669_g5978594476505_cont_9to1_m_202_17_alg».proof.Proof.Gen.Pre_input_domain
import proofs.«204669_g5978594476505_cont_9to1_m_202_17_alg».proof.Proof.PreRange
import proofs.«204669_g5978594476505_cont_9to1_m_202_17_alg».proof.Proof.KernelRun
import proofs.«204669_g5978594476505_cont_9to1_m_202_17_alg».proof.Proof.KernelIdealRun
import proofs.«204669_g5978594476505_cont_9to1_m_202_17_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_input_domain := Cert.Pre_input_domain.Gen.facts) :=
  fun m g hpre =>
    (θ_run (Cert.Kernel.defs (F := Bits)) _ _).mono (fun _ h c => (h c).2)
      (Cert.Proof.Kernel.run (F := Bits) m g fun d => Cert.Proof.PreRange.inRange _ _ _ (hpre d))

/-- The idealized kernel runs and leaves its arguments unchanged. -/
theorem frame_ki : Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => (h c).2)
      (Cert.Proof.KernelIdeal.run (F := Ideal) m g fun d => Cert.Proof.PreRange.inRange _ _ _ (hpre d))

/-- The idealized reference runs and leaves its arguments unchanged. -/
theorem frame_ri : Cert.frame_ReferenceIdeal (hReferenceIdeal := Cert.ReferenceIdeal.Gen.facts) (hPre_input_domain := Cert.Pre_input_domain.Gen.facts) :=
  fun m g hpre =>
    (θ_run (Cert.ReferenceIdeal.defs (F := Ideal)) _ _).mono (fun _ h c => (h c).2)
      (Cert.Proof.RefRun.run m g fun c => Cert.Proof.PreRange.inRange _ _ _ (hpre c))

/-- From arguments that agree, the idealized kernel and the idealized reference end at one result. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hr : ∀ d : Dev Cert.KernelIdeal.nD, Cert.Spec.InRange (m ((d.tc : Thread Cert.KernelIdeal.nD Cert.KernelIdeal.τ).loc Cert.KernelIdeal.main_arg1)) :=
    fun d => Cert.Proof.PreRange.inRange _ _ _ (hpre d)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Proof.KernelIdeal.run (F := Ideal) m g hr, ?_⟩
  refine (θ_run (Cert.ReferenceIdeal.defs (F := Ideal)) _ _).mono (fun _ h c => ⟨?_, (h c).2⟩)
    (Cert.Proof.RefRun.run m' g' fun c => by rw [(hagree c).2.1]; exact hr c)
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
